-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x3x4 : Shape := ⟨3, ![8, 3, 4]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x3x4 : S_.BroadcastsInDim S8x3x4 (![] : Fin 0 → Fin S8x3x4.rank)
  reducesTo_S8x3x4_S_d0_1_2 : S8x3x4.ReducesTo [0, 1, 2] S_

variable [Facts]

def fn {F : FTy → Type} [FloatOps F] (main_arg0 : FVec F S8x4096x3 .f32) (main_arg1 : FVec F S8x4096x3 .f32) (main_arg2 : FVec F S8x3x4 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x3x4 .f32 := Host.absf main_arg2
  let main_cst_2 : FVec F S_ .f32 := constant S_ .f32 0x7F800000#32
  let main_v10 : FVec F S8x3x4 .f32 := broadcastInDim S8x3x4 ![] bcast_S_S8x3x4 main_cst_2
  let main_v11 : IVec S8x3x4 1 := cmpf .olt main_v9 main_v10
  let main_c_3 : IVec S_ 1 := constantI S_ 1 1#1
  let main_v12 : IVec S_ 1 := (fun x v => Host.reduce IntOp.andi x v reducesTo_S8x3x4_S_d0_1_2 h_S_) main_v11 main_c_3
  let main_v13 : IVec S_ 1 := andi main_v8 main_v12
  main_v13
-- ==== Kernel.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩
abbrev S8x4096x2 : Shape := ⟨3, ![8, 4096, 2]⟩
abbrev S8x2x4096 : Shape := ⟨3, ![8, 2, 4096]⟩
abbrev S8x1x4096 : Shape := ⟨3, ![8, 1, 4096]⟩
abbrev S1x512x2 : Shape := ⟨3, ![1, 512, 2]⟩
abbrev S1x2x4096 : Shape := ⟨3, ![1, 2, 4096]⟩
abbrev S1x512x1 : Shape := ⟨3, ![1, 512, 1]⟩
abbrev S1x1x4096 : Shape := ⟨3, ![1, 1, 4096]⟩
abbrev S512x2 : Shape := ⟨2, ![512, 2]⟩
abbrev S2x4096 : Shape := ⟨2, ![2, 4096]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩
abbrev S4096 : Shape := ⟨1, ![4096]⟩
abbrev S8x4096 : Shape := ⟨2, ![8, 4096]⟩
abbrev S8 : Shape := ⟨1, ![8]⟩

abbrev nBuf : Space → Nat
  | .hbm => 39
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S8x4096x2, .f32⟩
  | .hbm, ⟨8, _⟩ => ⟨S8x4096x1, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x1, .f32⟩
  | .hbm, ⟨13, _⟩ => ⟨S8x4096x4, .f32⟩
  | .hbm, ⟨14, _⟩ => ⟨S8x4096x3, .f32⟩
  | .hbm, ⟨15, _⟩ => ⟨S8x4096x2, .f32⟩
  | .hbm, ⟨16, _⟩ => ⟨S8x4096x1, .f32⟩
  | .hbm, ⟨17, _⟩ => ⟨S8x4096x2, .f32⟩
  | .hbm, ⟨18, _⟩ => ⟨S8x4096x2, .f32⟩
  | .hbm, ⟨19, _⟩ => ⟨S8x2x4096, .f32⟩
  | .hbm, ⟨20, _⟩ => ⟨S8x4096x1, .f32⟩
  | .hbm, ⟨21, _⟩ => ⟨S8x1x4096, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x512x2, .f32⟩
  | .local _ .vmem, ⟨1, _⟩ => ⟨S1x512x2, .f32⟩
  | .local _ .vmem, ⟨2, _⟩ => ⟨S1x2x4096, .f32⟩
  | .local _ .vmem, ⟨3, _⟩ => ⟨S1x2x4096, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let v38 : BitVec 32 := Scalar.extui v37
  let c0_i32_11 : BitVec 32 := 0#32
  let v39 : BitVec 1 := Scalar.cmpi .ne v38 c0_i32_11
  v39

def k0_cond2 (i : grid0.Coords) : BitVec 1 :=
  let arg1 : BitVec 32 := BitVec.ofNat 32 (i 1).val
  let c0_i32_12 : BitVec 32 := 0#32
  let v40 : BitVec 1 := Scalar.cmpi .ne arg1 c0_i32_12
  let v41 : BitVec 32 := Scalar.extui v40
  let c0_i32_13 : BitVec 32 := 0#32
  let v42 : BitVec 1 := Scalar.cmpi .ne v41 c0_i32_13
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x2_0_0_0 : S8x4096x3.Slices ![0, 0, 0] S8x4096x2
  slices_S8x4096x3_S8x4096x1_0_0_2 : S8x4096x3.Slices ![0, 0, 2] S8x4096x1
  bcast_S8x4096x1_S8x4096x2_0_1_2 : S8x4096x1.BroadcastsInDim S8x4096x2 (![0, 1, 2] : Fin 3 → Fin S8x4096x2.rank)
  transposes_S8x4096x2_S8x2x4096_0_2_1 : S8x4096x2.Transposes [0, 2, 1] S8x2x4096
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  inb_S1x2x4096_S1x2x4096_0_0_0 : ∀ a, (![0, 0, 0] : Fin 3 → Nat) a + S1x2x4096.size a ≤ S1x2x4096.size a
  h_S1x2x4096 : 0 < S1x2x4096.numel
  shapeCasts_S1x2x4096_S2x4096 : S1x2x4096.ShapeCasts S2x4096
  slices_S512x2_o0_0_S512x1 : S512x2.Slices ![0, 0] S512x1
  slices_S512x2_o0_1_S512x1 : S512x2.Slices ![0, 1] S512x1
  slices_S2x4096_o0_0_S1x4096 : S2x4096.Slices ![0, 0] S1x4096
  slices_S2x4096_o1_0_S1x4096 : S2x4096.Slices ![1, 0] S1x4096
  broadcasts_S512x1_S512x4096 : S512x1.Broadcasts S512x4096
  broadcasts_S1x4096_S512x4096 : S1x4096.Broadcasts S512x4096
  reduces_S512x4096_S512 : S512x4096.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x4096_S4096 : S512x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S8x4096x4_S8x3x4_S8x4096x3_2_2_1_1_0_0_wf : DotDims.WF S8x4096x4 S8x3x4 S8x4096x3 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x4096x2.size a
  hwx0_0 : ∀ i : grid0.Coords, EltTy.bits .f32 = 32 ∨ (Rect.block (s := S8x4096x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096.size a ≤ S8x2x4096.size a
  hwx0_1 : ∀ i : grid0.Coords, EltTy.bits .f32 = 32 ∨ (Rect.block (s := S8x2x4096) S1x2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf

abbrev win0_0 : Pipeline.Window sig grid0 :=
  Pipeline.Window.ofSpec (Memref.whole main_v6) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩
abbrev S8x4096x2 : Shape := ⟨3, ![8, 4096, 2]⟩
abbrev S8x4096 : Shape := ⟨2, ![8, 4096]⟩
abbrev S8x1x4096 : Shape := ⟨3, ![8, 1, 4096]⟩
abbrev S8x4096x4096 : Shape := ⟨3, ![8, 4096, 4096]⟩
abbrev S8 : Shape := ⟨1, ![8]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S8x4096x2, .f32⟩
  | .hbm, ⟨8, _⟩ => ⟨S8x4096x1, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x1, .f32⟩
  | .hbm, ⟨13, _⟩ => ⟨S8x4096x4, .f32⟩
  | .hbm, ⟨14, _⟩ => ⟨S8x4096x3, .f32⟩
  | .hbm, ⟨15, _⟩ => ⟨S8x4096x2, .f32⟩
  | .hbm, ⟨16, _⟩ => ⟨S8x4096x1, .f32⟩
  | .hbm, ⟨17, _⟩ => ⟨S8x4096x2, .f32⟩
  | .hbm, ⟨18, _⟩ => ⟨S8x4096x2, .f32⟩
  | .hbm, ⟨19, _⟩ => ⟨S8x4096x2, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x2, .f32⟩
  | .hbm, ⟨24, _⟩ => ⟨S_, .f32⟩
  | .hbm, ⟨25, _⟩ => ⟨S8x4096, .f32⟩
  | .hbm, ⟨26, _⟩ => ⟨S8x1x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x2_0_0_0 : S8x4096x3.Slices ![0, 0, 0] S8x4096x2
  slices_S8x4096x3_S8x4096x1_0_0_2 : S8x4096x3.Slices ![0, 0, 2] S8x4096x1
  bcast_S8x4096x1_S8x4096x2_0_1_2 : S8x4096x1.BroadcastsInDim S8x4096x2 (![0, 1, 2] : Fin 3 → Fin S8x4096x2.rank)
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x4_S8x3x4_S8x4096x3_2_2_1_1_0_0_wf : DotDims.WF S8x4096x4 S8x3x4 S8x4096x3 [2] [2] [1] [1] [0] [0]
  dot_S8x4096x2_S8x4096x2_S8x4096x4096_2_2_1_1_0_0_wf : DotDims.WF S8x4096x2 S8x4096x2 S8x4096x4096 [2] [2] [1] [1] [0] [0]

variable [Facts₀]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf
def dot_S8x4096x2_S8x4096x2_S8x4096x4096_2_2_1_1_0_0 : DotDims S8x4096x2 S8x4096x2 S8x4096x4096 where
  lhsContracting := [2]
  rhsContracting := [2]
  lhsNonContracting := [1]
  rhsNonContracting := [1]
  lhsBatch := [0]
  rhsBatch := [0]
  wf := dot_S8x4096x2_S8x4096x2_S8x4096x4096_2_2_1_1_0_0_wf

class Facts : Prop extends Facts₀ where

variable [Facts]
-- ==== Proof.KB.Cases.lean ====
import proofs.«146134_j35115652612619_1_alg».proof.Proof.Gen.Kernel.Frame
import proofs.«146134_j35115652612619_1_alg».proof.Proof.Gen.Kernel.Skeleton

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two control cases

The body branches twice on the second grid coordinate `j` (the tile of the reduced axis): under `j = 0` it stores the
tile's column minima into the column output, under `j ≠ 0` it stores their minimum with what that output's buffer
already holds. Exactly one of the two holds at every point: at the points `≡ 0 (mod 8)` the first, elsewhere the
second. -/

/-- The first branch is taken exactly at the first tile of each batch row. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken exactly at the other tiles. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches stores into the column output at every grid coordinate: the window is never idle. -/
theorem live3 (i : grid0.Coords) : cfg0.idle 3 i = false := by
  have h : ∀ x : Fin 8, (!(Scalar.cmpi .ne (Scalar.extui (Scalar.cmpi .eq (BitVec.ofNat 32 x.val) 0#32)) 0#32 == 1#1)
      && !(Scalar.cmpi .ne (Scalar.extui (Scalar.cmpi .ne (BitVec.ofNat 32 x.val) 0#32)) 0#32 == 1#1)) = false := by decide
  exact h (i 1)

theorem live0 (i : grid0.Coords) : cfg0.idle 0 i = false := rfl
theorem live1 (i : grid0.Coords) : cfg0.idle 1 i = false := rfl
theorem live2 (i : grid0.Coords) : cfg0.idle 2 i = false := rfl

/-- One staging buffer of each output window, through which its contents are stated. -/
abbrev VO2 : View sig .tc .vmem S1x512x1 .f32 := (Memref.whole cc0_stg2_0 : Memref sig .tc .vmem S1x512x1 .f32).view
abbrev VO3 : View sig .tc .vmem S1x1x4096 .f32 := (Memref.whole cc0_stg3_0 : Memref sig .tc .vmem S1x1x4096 .f32).view
/-- Each window's current staging memref at point `t`, as the pipeline passes it, and its wholeness. -/
abbrev ms0 (t : Fin cfg0.N) : Memref sig .tc .vmem S1x512x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.Kernel.Gen.Hand

end
-- ==== Proof.KB.RunA.lean ====
import proofs.«146134_j35115652612619_1_alg».proof.Proof.KB.Cases

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this control case, on whole staging memrefs: the two input buffers at their contents, the
    row-minimum output's buffer at anything, the column-minimum output's buffer at anything. It runs to the
    continuation with the inputs as they were and each output's buffer with its stores written; the lists of written
    pieces (last first) are found by the run itself. -/
noncomputable def kernelRun0_A (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) :
    Σ' (L2 : List (View.Piece (Elt F) S1x512x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Gen.Hand

end
-- ==== Proof.KB.RunB.lean ====
import proofs.«146134_j35115652612619_1_alg».proof.Proof.KB.RunA

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this control case, on whole staging memrefs: the two input buffers at their contents, the
    row-minimum output's buffer at anything, the column-minimum output's buffer at the running minimum `xo3` the points before left. It runs to the
    continuation with the inputs as they were and each output's buffer with its stores written; the lists of written
    pieces (last first) are found by the run itself. -/
noncomputable def kernelRun0_B (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) :
    Σ' (L2 : List (View.Piece (Elt F) S1x512x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Gen.Hand

end
-- ==== Proof.KB.Frame.lean ====
import proofs.«146134_j35115652612619_1_alg».proof.Proof.KB.RunB

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two output buffers -/

/-- In the first case the stores into the row-minimum output tile its block, so they cover it. -/
theorem cover0_A_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) (y : S1x512x1.Idx) :
    ∃ pc ∈ (kernelRun0_A c i arg2 harg2 arg3 harg3 arg4 harg4 arg5 harg5 hc1 hc2 x0 x1).1, y ∈ pc.1.set :=
  View.cover_of_tiledL (kernelRun0_A c i arg2 harg2 arg3 harg3 arg4 harg4 arg5 harg5 hc1 hc2 x0 x1).1 S1x512x1.size (by sl_kernel_rfl) y
/-- In the first case the stores into the column-minimum output tile its block, so they cover it. -/
theorem cover0_A_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) (y : S1x1x4096.Idx) :
    ∃ pc ∈ (kernelRun0_A c i arg2 harg2 arg3 harg3 arg4 harg4 arg5 harg5 hc1 hc2 x0 x1).2.1, y ∈ pc.1.set :=
  View.cover_of_tiledL (kernelRun0_A c i arg2 harg2 arg3 harg3 arg4 harg4 arg5 harg5 hc1 hc2 x0 x1).2.1 S1x1x4096.size (by sl_kernel_rfl) y
/-- In the second case the stores into the row-minimum output tile its block, so they cover it. -/
theorem cover0_B_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) (y : S1x512x1.Idx) :
    ∃ pc ∈ (kernelRun0_B c i arg2 harg2 arg3 harg3 arg4 harg4 arg5 harg5 hc1 hc2 x0 x1 xo3).1, y ∈ pc.1.set :=
  View.cover_of_tiledL (kernelRun0_B c i arg2 harg2 arg3 harg3 arg4 harg4 arg5 harg5 hc1 hc2 x0 x1 xo3).1 S1x512x1.size (by sl_kernel_rfl) y
/-- In the second case the stores into the column-minimum output tile its block, so they cover it. -/
theorem cover0_B_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) (y : S1x1x4096.Idx) :
    ∃ pc ∈ (kernelRun0_B c i arg2 harg2 arg3 harg3 arg4 harg4 arg5 harg5 hc1 hc2 x0 x1 xo3).2.1, y ∈ pc.1.set :=
  View.cover_of_tiledL (kernelRun0_B c i arg2 harg2 arg3 harg3 arg4 harg4 arg5 harg5 hc1 hc2 x0 x1 xo3).2.1 S1x1x4096.size (by sl_kernel_rfl) y

/-- What the first case leaves in the row-minimum output's buffer: its pieces read back. -/
def out0_A_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) : Vec F S1x512x1 .f32 :=
  VO2.read (Elt F) (VO2.writes (Elt F) VO2.junk (kernelRun0_A c i arg2 harg2 arg3 harg3 arg4 harg4 arg5 harg5 hc1 hc2 x0 x1).1)
/-- What the first case leaves in the column-minimum output's buffer: its pieces read back. -/
def out0_A_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) : Vec F S1x1x4096 .f32 :=
  VO3.read (Elt F) (VO3.writes (Elt F) VO3.junk (kernelRun0_A c i arg2 harg2 arg3 harg3 arg4 harg4 arg5 harg5 hc1 hc2 x0 x1).2.1)
/-- What the second case leaves in the row-minimum output's buffer: its pieces read back. -/
def out0_B_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) : Vec F S1x512x1 .f32 :=
  VO2.read (Elt F) (VO2.writes (Elt F) VO2.junk (kernelRun0_B c i arg2 harg2 arg3 harg3 arg4 harg4 arg5 harg5 hc1 hc2 x0 x1 xo3).1)
/-- What the second case leaves in the column-minimum output's buffer: its pieces read back. -/
def out0_B_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) : Vec F S1x1x4096 .f32 :=
  VO3.read (Elt F) (VO3.writes (Elt F) VO3.junk (kernelRun0_B c i arg2 harg2 arg3 harg3 arg4 harg4 arg5 harg5 hc1 hc2 x0 x1 xo3).2.1)

/-! ## What the outputs hold after each point -/

/-- What the two outputs' staging buffers hold after the body at position `n`: at a first tile (`n ≡ 0 mod 8`) what
    the first case leaves from the point's input blocks; at a later tile what the second case leaves from them and
    from the column minima the point before left (that buffer is not written back between). -/
def outsAt0 (c : Dev nD) : (n : ℕ) → n < cfg0.N → Vec F S1x512x1 .f32 × Vec F S1x1x4096 .f32
  | 0, hn =>
    (out0_A_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => ((hcond2 ⟨0, hn⟩).mp h) (Nat.zero_mod _)) (iblk m c 0 ⟨0, hn⟩) (iblk m c 1 ⟨0, hn⟩),
     out0_A_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => ((hcond2 ⟨0, hn⟩).mp h) (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => ((hcond2 ⟨n + 1, hn⟩).mp h) h0) (iblk m c 0 ⟨n + 1, hn⟩) (iblk m c 1 ⟨n + 1, hn⟩),
       out0_A_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => ((hcond2 ⟨n + 1, hn⟩).mp h) h0) (iblk m c 0 ⟨n + 1, hn⟩) (iblk m c 1 ⟨n + 1, hn⟩))
    else
      (out0_B_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (outsAt0 c n (Nat.lt_of_succ_lt hn)).2,
       out0_B_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (outsAt0 c n (Nat.lt_of_succ_lt hn)).2)

/-- `outsAt0` at a first tile: the first case's contents. -/
theorem outsAt0_A (c : Dev nD) (t : Fin cfg0.N) (h0 : t.val % 8 = 0) :
    outsAt0 m c t.val t.isLt =
      (out0_A_2 c (grid0.coords t) (ms0 t) (hs0 t) (ms1 t) (hs1 t) (ms2 t) (hs2 t) (ms3 t) (hs3 t) ((hcond1 t).mpr h0) (fun h => ((hcond2 t).mp h) h0) (iblk m c 0 t) (iblk m c 1 t),
       out0_A_3 c (grid0.coords t) (ms0 t) (hs0 t) (ms1 t) (hs1 t) (ms2 t) (hs2 t) (ms3 t) (hs3 t) ((hcond1 t).mpr h0) (fun h => ((hcond2 t).mp h) h0) (iblk m c 0 t) (iblk m c 1 t)) := by
  obtain ⟨n, hn⟩ := t
  cases n with
  | zero => exact rfl
  | succ n => exact (dif_pos h0).trans rfl

/-- `outsAt0` at a later tile: the second case's contents, over what the point before left. -/
theorem outsAt0_B (c : Dev nD) (t : Fin cfg0.N) (h0 : ¬t.val % 8 = 0) :
    outsAt0 m c t.val t.isLt =
      (out0_B_2 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt0 m c (t.val - 1) (Nat.lt_of_le_of_lt (Nat.sub_le _ _) t.isLt)).2,
       out0_B_3 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the two outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later tile the column-minimum output's current staging buffer holds what the body left at the point before:
    the buffer is written back only after a batch row's last tile. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

set_option maxHeartbeats 1600000 in
/-- The body at any point: the inputs' buffers hold their blocks; the point is a first tile or a later one; at a
    later one the column-minimum buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2,
    show (dats m 0 c).leavesExact 3 t = owns (c : Thread nD τ) (ms3 t) fullShare ((dats m 0 c).after 3 t) from by
      unfold Dat.leavesExact; rw [live3 (grid0.coords t)], after0_3]
  have hN : t.val < 64 := lt_of_lt_of_eq t.isLt (show cfg0.N = 64 from N_0)
  by_cases h0 : t.val % 8 = 0
  · rw [outsAt0_A m c t h0]
    (try dsimp only)
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond1 t).mpr h0) (fun h => ((hcond2 t).mp h) h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    (try dsimp only)
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond1 t).mp h)) ((hcond2 t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data's write-backs leave and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its argument arrays unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen.Hand

end
-- ==== Proof.KI.Cases.lean ====
import proofs.«146134_j35115652612619_1_alg».proof.Proof.Gen.KernelIdeal.Frame
import proofs.«146134_j35115652612619_1_alg».proof.Proof.Gen.KernelIdeal.Skeleton

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two control cases

The body branches twice on the second grid coordinate `j` (the tile of the reduced axis): under `j = 0` it stores the
tile's column minima into the column output, under `j ≠ 0` it stores their minimum with what that output's buffer
already holds. Exactly one of the two holds at every point: at the points `≡ 0 (mod 8)` the first, elsewhere the
second. -/

/-- The first branch is taken exactly at the first tile of each batch row. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
/-- The second branch is taken exactly at the other tiles. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two branches stores into the column output at every grid coordinate: the window is never idle. -/
theorem live3 (i : grid0.Coords) : cfg0.idle 3 i = false := by
  have h : ∀ x : Fin 8, (!(Scalar.cmpi .ne (Scalar.extui (Scalar.cmpi .eq (BitVec.ofNat 32 x.val) 0#32)) 0#32 == 1#1)
      && !(Scalar.cmpi .ne (Scalar.extui (Scalar.cmpi .ne (BitVec.ofNat 32 x.val) 0#32)) 0#32 == 1#1)) = false := by decide
  exact h (i 1)

theorem live0 (i : grid0.Coords) : cfg0.idle 0 i = false := rfl
theorem live1 (i : grid0.Coords) : cfg0.idle 1 i = false := rfl
theorem live2 (i : grid0.Coords) : cfg0.idle 2 i = false := rfl

/-- One staging buffer of each output window, through which its contents are stated. -/
abbrev VO2 : View sig .tc .vmem S1x512x1 .f32 := (Memref.whole cc0_stg2_0 : Memref sig .tc .vmem S1x512x1 .f32).view
abbrev VO3 : View sig .tc .vmem S1x1x4096 .f32 := (Memref.whole cc0_stg3_0 : Memref sig .tc .vmem S1x1x4096 .f32).view
/-- Each window's current staging memref at point `t`, as the pipeline passes it, and its wholeness. -/
abbrev ms0 (t : Fin cfg0.N) : Memref sig .tc .vmem S1x512x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Gen.Hand

end
-- ==== Proof.KI.RunA.lean ====
import proofs.«146134_j35115652612619_1_alg».proof.Proof.KI.Cases

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this control case, on whole staging memrefs: the two input buffers at their contents, the
    row-minimum output's buffer at anything, the column-minimum output's buffer at anything. It runs to the
    continuation with the inputs as they were and each output's buffer with its stores written; the lists of written
    pieces (last first) are found by the run itself. -/
noncomputable def kernelRun0_A (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) :
    Σ' (L2 : List (View.Piece (Elt F) S1x512x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Gen.Hand

end
-- ==== Proof.KI.RunB.lean ====
import proofs.«146134_j35115652612619_1_alg».proof.Proof.KI.RunA

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this control case, on whole staging memrefs: the two input buffers at their contents, the
    row-minimum output's buffer at anything, the column-minimum output's buffer at the running minimum `xo3` the points before left. It runs to the
    continuation with the inputs as they were and each output's buffer with its stores written; the lists of written
    pieces (last first) are found by the run itself. -/
noncomputable def kernelRun0_B (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) :
    Σ' (L2 : List (View.Piece (Elt F) S1x512x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Gen.Hand

end
-- ==== Proof.KI.Frame.lean ====
import proofs.«146134_j35115652612619_1_alg».proof.Proof.KI.RunB

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two output buffers -/

/-- In the first case the stores into the row-minimum output tile its block, so they cover it. -/
theorem cover0_A_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) (y : S1x512x1.Idx) :
    ∃ pc ∈ (kernelRun0_A c i arg2 harg2 arg3 harg3 arg4 harg4 arg5 harg5 hc1 hc2 x0 x1).1, y ∈ pc.1.set :=
  View.cover_of_tiledL (kernelRun0_A c i arg2 harg2 arg3 harg3 arg4 harg4 arg5 harg5 hc1 hc2 x0 x1).1 S1x512x1.size (by sl_kernel_rfl) y
/-- In the first case the stores into the column-minimum output tile its block, so they cover it. -/
theorem cover0_A_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) (y : S1x1x4096.Idx) :
    ∃ pc ∈ (kernelRun0_A c i arg2 harg2 arg3 harg3 arg4 harg4 arg5 harg5 hc1 hc2 x0 x1).2.1, y ∈ pc.1.set :=
  View.cover_of_tiledL (kernelRun0_A c i arg2 harg2 arg3 harg3 arg4 harg4 arg5 harg5 hc1 hc2 x0 x1).2.1 S1x1x4096.size (by sl_kernel_rfl) y
/-- In the second case the stores into the row-minimum output tile its block, so they cover it. -/
theorem cover0_B_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) (y : S1x512x1.Idx) :
    ∃ pc ∈ (kernelRun0_B c i arg2 harg2 arg3 harg3 arg4 harg4 arg5 harg5 hc1 hc2 x0 x1 xo3).1, y ∈ pc.1.set :=
  View.cover_of_tiledL (kernelRun0_B c i arg2 harg2 arg3 harg3 arg4 harg4 arg5 harg5 hc1 hc2 x0 x1 xo3).1 S1x512x1.size (by sl_kernel_rfl) y
/-- In the second case the stores into the column-minimum output tile its block, so they cover it. -/
theorem cover0_B_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) (y : S1x1x4096.Idx) :
    ∃ pc ∈ (kernelRun0_B c i arg2 harg2 arg3 harg3 arg4 harg4 arg5 harg5 hc1 hc2 x0 x1 xo3).2.1, y ∈ pc.1.set :=
  View.cover_of_tiledL (kernelRun0_B c i arg2 harg2 arg3 harg3 arg4 harg4 arg5 harg5 hc1 hc2 x0 x1 xo3).2.1 S1x1x4096.size (by sl_kernel_rfl) y

/-- What the first case leaves in the row-minimum output's buffer: its pieces read back. -/
def out0_A_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) : Vec F S1x512x1 .f32 :=
  VO2.read (Elt F) (VO2.writes (Elt F) VO2.junk (kernelRun0_A c i arg2 harg2 arg3 harg3 arg4 harg4 arg5 harg5 hc1 hc2 x0 x1).1)
/-- What the first case leaves in the column-minimum output's buffer: its pieces read back. -/
def out0_A_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) : Vec F S1x1x4096 .f32 :=
  VO3.read (Elt F) (VO3.writes (Elt F) VO3.junk (kernelRun0_A c i arg2 harg2 arg3 harg3 arg4 harg4 arg5 harg5 hc1 hc2 x0 x1).2.1)
/-- What the second case leaves in the row-minimum output's buffer: its pieces read back. -/
def out0_B_2 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) : Vec F S1x512x1 .f32 :=
  VO2.read (Elt F) (VO2.writes (Elt F) VO2.junk (kernelRun0_B c i arg2 harg2 arg3 harg3 arg4 harg4 arg5 harg5 hc1 hc2 x0 x1 xo3).1)
/-- What the second case leaves in the column-minimum output's buffer: its pieces read back. -/
def out0_B_3 (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) : Vec F S1x1x4096 .f32 :=
  VO3.read (Elt F) (VO3.writes (Elt F) VO3.junk (kernelRun0_B c i arg2 harg2 arg3 harg3 arg4 harg4 arg5 harg5 hc1 hc2 x0 x1 xo3).2.1)

/-! ## What the outputs hold after each point -/

/-- What the two outputs' staging buffers hold after the body at position `n`: at a first tile (`n ≡ 0 mod 8`) what
    the first case leaves from the point's input blocks; at a later tile what the second case leaves from them and
    from the column minima the point before left (that buffer is not written back between). -/
def outsAt0 (c : Dev nD) : (n : ℕ) → n < cfg0.N → Vec F S1x512x1 .f32 × Vec F S1x1x4096 .f32
  | 0, hn =>
    (out0_A_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => ((hcond2 ⟨0, hn⟩).mp h) (Nat.zero_mod _)) (iblk m c 0 ⟨0, hn⟩) (iblk m c 1 ⟨0, hn⟩),
     out0_A_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((hcond1 ⟨0, hn⟩).mpr (Nat.zero_mod _)) (fun h => ((hcond2 ⟨0, hn⟩).mp h) (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => ((hcond2 ⟨n + 1, hn⟩).mp h) h0) (iblk m c 0 ⟨n + 1, hn⟩) (iblk m c 1 ⟨n + 1, hn⟩),
       out0_A_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((hcond1 ⟨n + 1, hn⟩).mpr h0) (fun h => ((hcond2 ⟨n + 1, hn⟩).mp h) h0) (iblk m c 0 ⟨n + 1, hn⟩) (iblk m c 1 ⟨n + 1, hn⟩))
    else
      (out0_B_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (outsAt0 c n (Nat.lt_of_succ_lt hn)).2,
       out0_B_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (outsAt0 c n (Nat.lt_of_succ_lt hn)).2)

/-- `outsAt0` at a first tile: the first case's contents. -/
theorem outsAt0_A (c : Dev nD) (t : Fin cfg0.N) (h0 : t.val % 8 = 0) :
    outsAt0 m c t.val t.isLt =
      (out0_A_2 c (grid0.coords t) (ms0 t) (hs0 t) (ms1 t) (hs1 t) (ms2 t) (hs2 t) (ms3 t) (hs3 t) ((hcond1 t).mpr h0) (fun h => ((hcond2 t).mp h) h0) (iblk m c 0 t) (iblk m c 1 t),
       out0_A_3 c (grid0.coords t) (ms0 t) (hs0 t) (ms1 t) (hs1 t) (ms2 t) (hs2 t) (ms3 t) (hs3 t) ((hcond1 t).mpr h0) (fun h => ((hcond2 t).mp h) h0) (iblk m c 0 t) (iblk m c 1 t)) := by
  obtain ⟨n, hn⟩ := t
  cases n with
  | zero => exact rfl
  | succ n => exact (dif_pos h0).trans rfl

/-- `outsAt0` at a later tile: the second case's contents, over what the point before left. -/
theorem outsAt0_B (c : Dev nD) (t : Fin cfg0.N) (h0 : ¬t.val % 8 = 0) :
    outsAt0 m c t.val t.isLt =
      (out0_B_2 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt0 m c (t.val - 1) (Nat.lt_of_le_of_lt (Nat.sub_le _ _) t.isLt)).2,
       out0_B_3 c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the two outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later tile the column-minimum output's current staging buffer holds what the body left at the point before:
    the buffer is written back only after a batch row's last tile. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

set_option maxHeartbeats 1600000 in
/-- The body at any point: the inputs' buffers hold their blocks; the point is a first tile or a later one; at a
    later one the column-minimum buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2,
    show (dats m 0 c).leavesExact 3 t = owns (c : Thread nD τ) (ms3 t) fullShare ((dats m 0 c).after 3 t) from by
      unfold Dat.leavesExact; rw [live3 (grid0.coords t)], after0_3]
  have hN : t.val < 64 := lt_of_lt_of_eq t.isLt (show cfg0.N = 64 from N_0)
  by_cases h0 : t.val % 8 = 0
  · rw [outsAt0_A m c t h0]
    (try dsimp only)
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond1 t).mpr h0) (fun h => ((hcond2 t).mp h) h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _)
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    (try dsimp only)
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond1 t).mp h)) ((hcond2 t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the proof data's write-backs leave and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its argument arrays unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen.Hand

end
-- ==== Proof.KI.Pieces.lean ====
import proofs.«146134_j35115652612619_1_alg».proof.Proof.KI.Frame
import Idealize.ShloMosaic.Lib.Pipeline.Value

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, through the body's named arithmetic

Every store of the body writes a whole block, so what a case leaves in an output buffer is the payload of its last
store there, computed from the blocks the buffers held. -/

theorem hz3 : (![0, 0, 0] : Fin 3 → Nat) = fun _ => 0 := funext fun a => by fin_cases a <;> rfl

/-- At a first tile the row-minimum buffer is left at the row minima of the point's two input blocks. -/
theorem out0_A_2_eq (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) : out0_A_2 c i arg2 harg2 arg3 harg3 arg4 harg4 arg5 harg5 hc1 hc2 x0 x1 = k0_pay3 x0 x1 := by
  unfold out0_A_2
  rw [View.read_writes_eq_canon _ _ _ (cover0_A_2 c i arg2 harg2 arg3 harg3 arg4 harg4 arg5 harg5 hc1 hc2 x0 x1)]
  unfold kernelRun0_A
  dsimp only
  sl_unfold_words
  rw [View.canon_unit_zero hz3]
  simp only [View.readAt_eq_ld, harg2.read_unread, harg3.read_unread, View.ld_unit_zero (S := S1x512x2) hz3, View.ld_unit_zero (S := S1x2x4096) hz3]
  try rfl

/-- At a first tile the column-minimum buffer is left at the column minima of the point's two input blocks. -/
theorem out0_A_3_eq (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : k0_cond1 i = 1#1) (hc2 : ¬ k0_cond2 i = 1#1)
    (x0 : Vec F S1x512x2 .f32) (x1 : Vec F S1x2x4096 .f32) : out0_A_3 c i arg2 harg2 arg3 harg3 arg4 harg4 arg5 harg5 hc1 hc2 x0 x1 = k0_pay5 x0 x1 := by
  unfold out0_A_3
  rw [View.read_writes_eq_canon _ _ _ (cover0_A_3 c i arg2 harg2 arg3 harg3 arg4 harg4 arg5 harg5 hc1 hc2 x0 x1)]
  unfold kernelRun0_A
  dsimp only
  sl_unfold_words
  rw [View.canon_unit_zero hz3]
  simp only [View.readAt_eq_ld, harg2.read_unread, harg3.read_unread, View.ld_unit_zero (S := S1x512x2) hz3, View.ld_unit_zero (S := S1x2x4096) hz3]
  try rfl

/-- At a later tile the row-minimum buffer is left at the row minima of the point's two input blocks. -/
theorem out0_B_2_eq (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) : out0_B_2 c i arg2 harg2 arg3 harg3 arg4 harg4 arg5 harg5 hc1 hc2 x0 x1 xo3 = k0_pay3 x0 x1 := by
  unfold out0_B_2
  rw [View.read_writes_eq_canon _ _ _ (cover0_B_2 c i arg2 harg2 arg3 harg3 arg4 harg4 arg5 harg5 hc1 hc2 x0 x1 xo3)]
  unfold kernelRun0_B
  dsimp only
  sl_unfold_words
  rw [View.canon_unit_zero hz3]
  simp only [View.readAt_eq_ld, harg2.read_unread, harg3.read_unread, View.ld_unit_zero (S := S1x512x2) hz3, View.ld_unit_zero (S := S1x2x4096) hz3]
  try rfl

/-- At a later tile the column-minimum buffer is left at the minimum of what it held and the column minima of the
    point's two input blocks. -/
theorem out0_B_3_eq (c : Dev nD) (i : grid0.Coords) (arg2 : Memref sig .tc .vmem S1x512x2 .f32) (harg2 : arg2.IsWhole) (arg3 : Memref sig .tc .vmem S1x2x4096 .f32) (harg3 : arg3.IsWhole) (arg4 : Memref sig .tc .vmem S1x512x1 .f32) (harg4 : arg4.IsWhole) (arg5 : Memref sig .tc .vmem S1x1x4096 .f32) (harg5 : arg5.IsWhole) (hc1 : ¬ k0_cond1 i = 1#1) (hc2 : k0_cond2 i = 1#1)
    (x0 : Vec F S1x512x2 .f32) (x1 : Vec F S1x2x4096 .f32) (xo3 : Vec F S1x1x4096 .f32) : out0_B_3 c i arg2 harg2 arg3 harg3 arg4 harg4 arg5 harg5 hc1 hc2 x0 x1 xo3 = k0_pay1 (k0_pay4 x0 x1) xo3 := by
  unfold out0_B_3
  rw [View.read_writes_eq_canon _ _ _ (cover0_B_3 c i arg2 harg2 arg3 harg3 arg4 harg4 arg5 harg5 hc1 hc2 x0 x1 xo3)]
  unfold kernelRun0_B
  dsimp only
  sl_unfold_words
  rw [View.canon_unit_zero hz3]
  simp only [View.readAt_eq_ld, harg2.read_unread, harg3.read_unread, harg5.read_unread, View.ld_unit_zero (S := S1x512x2) hz3, View.ld_unit_zero (S := S1x2x4096) hz3, View.ld_unit_zero (S := S1x1x4096) hz3]
  try rfl

end Cert.KernelIdeal.Gen.Hand

end
-- ==== Proof.KI.Blocks.lean ====
import proofs.«146134_j35115652612619_1_alg».proof.Proof.KI.Pieces
import Idealize.ShloMosaic.Lib.ValueIdx

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ)

/-! ## Where each point's blocks lie

Point `t` of the 8-by-8 grid is batch row `t / 8`, tile `t % 8`. Its block of the first cloud is rows
`512·(t % 8) …` of batch row `t / 8`; its block of the second cloud (stored coordinate-major) is all of batch row
`t / 8`; the row-minimum output's block is placed like the first, the column-minimum output's like the second. -/

/-- The batch row of a grid point. -/
def rowOf (t : Fin cfg0.N) : Fin 8 := ⟨t.val / 8, by have := lt_of_lt_of_eq t.isLt (show cfg0.N = 64 from N_0); omega⟩
/-- The tile of a grid point. -/
def tileOf (t : Fin cfg0.N) : Fin 8 := ⟨t.val % 8, Nat.mod_lt _ (by norm_num)⟩
/-- The point of the first cloud at offset `r` of the grid point's tile. -/
def ptOf (t : Fin cfg0.N) (r : Fin 512) : Fin 4096 :=
  ⟨512 * (t.val % 8) + r.val, by have := r.isLt; have := Nat.mod_lt t.val (show 0 < 8 by norm_num); omega⟩

/-- The printed index maps, decided over the grid. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The first cloud's block at a point, read at (row offset, coordinate). -/
theorem iblk0_apply (c : Dev nD) (t : Fin cfg0.N) (r : Fin 512) (e : Fin 2) :
    (iblk m c 0 t : S1x512x2.Idx → Elt F .f32) (ix3 (0 : Fin 1) r e) = (V m c main_v6 : S8x4096x2.Idx → Elt F .f32) (ix3 (rowOf t) (ptOf t r) e) := by
  obtain ⟨e0, e1, e2, -⟩ := idx_facts t
  show V m c main_v6 (((cfg0.win 0).blk t).view.emb (ix3 (0 : Fin 1) r e)) = V m c main_v6 (ix3 (rowOf t) (ptOf t r) e)
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 2 + 1 * e.val = e.val; omega

/-- The second cloud's block at a point, read at (coordinate, point). -/
theorem iblk1_apply (c : Dev nD) (t : Fin cfg0.N) (e : Fin 2) (k : Fin 4096) :
    (iblk m c 1 t : S1x2x4096.Idx → Elt F .f32) (ix3 (0 : Fin 1) e k) = (V m c main_v14 : S8x2x4096.Idx → Elt F .f32) (ix3 (rowOf t) e k) := by
  obtain ⟨-, -, -, e0, e1, e2, -⟩ := idx_facts t
  show V m c main_v14 (((cfg0.win 1).blk t).view.emb (ix3 (0 : Fin 1) e k)) = V m c main_v14 (ix3 (rowOf t) e k)
  refine congrArg _ (funext fun a => Fin.ext ?_)
  match a with
  | ⟨0, _⟩ => show win0_1.index t (0 : Fin 3) * 1 + 1 * 0 = t.val / 8; omega
  | ⟨1, _⟩ => show win0_1.index t (1 : Fin 3) * 2 + 1 * e.val = e.val; omega
  | ⟨2, _⟩ => show win0_1.index t (2 : Fin 3) * 4096 + 1 * k.val = k.val; omega

end Cert.KernelIdeal.Gen.Hand

end
-- ==== Proof.Spec.lean ====
import Idealize.ShloMosaic.PureOps.Ideal
import Idealize.ShloMosaic.PureOps.Ideal.Laws
import Idealize.ShloMosaic.Lib.ValueIdx

/-!
# The two minima of the pairwise distances, as functions of the projected points

`a` and `b` are two clouds of 4096 plane points in each of 8 batch rows. The distance of point `n` of `a` and point
`k` of `b` is `√(max(|a_n|² + |b_k|² − 2·⟨a_n, b_k⟩, ε))` on the extended reals; `rowMin` is, for each point of `a`,
the least distance to a point of `b`; `colMin` is, for each point of `b`, the least distance to a point of `a`.
-/

noncomputable section

namespace Cert.Chamfer

open Idealize.ShloMosaic Idealize.ShloMosaic.ValueIdx

/-- Distance of point `n` of `a` and point `k` of `b` in batch row `β`, the squared norms and the inner product each
    written out over the two plane coordinates. -/
def dist (a b : (⟨3, ![8, 4096, 2]⟩ : Shape).Idx → EReal) (β : Fin 8) (n k : Fin 4096) : EReal :=
  Ideal.sqrt (max
    ((a (ix3 β n (0 : Fin 2)) * a (ix3 β n (0 : Fin 2)) + a (ix3 β n (1 : Fin 2)) * a (ix3 β n (1 : Fin 2)))
      + (b (ix3 β k (0 : Fin 2)) * b (ix3 β k (0 : Fin 2)) + b (ix3 β k (1 : Fin 2)) * b (ix3 β k (1 : Fin 2)))
      - Ideal.ofBits .f32 0x40000000#32
          * (a (ix3 β n (0 : Fin 2)) * b (ix3 β k (0 : Fin 2)) + a (ix3 β n (1 : Fin 2)) * b (ix3 β k (1 : Fin 2))))
    (Ideal.ofBits .f32 0x2B8CBCCC#32))

/-- For each point of `a`: the least distance to a point of `b`. -/
def rowMin (a b : (⟨3, ![8, 4096, 2]⟩ : Shape).Idx → EReal) : (⟨2, ![8, 4096]⟩ : Shape).Idx → EReal :=
  fun j => Finset.univ.inf fun k : Fin 4096 => dist a b (j 0) (j 1) k

/-- For each point of `b`: the least distance to a point of `a`. -/
def colMin (a b : (⟨3, ![8, 4096, 2]⟩ : Shape).Idx → EReal) : (⟨2, ![8, 4096]⟩ : Shape).Idx → EReal :=
  fun j => Finset.univ.inf fun n : Fin 4096 => dist a b (j 0) n (j 1)

/-- A fold of `min` from `⊤` over a finite set is the set's infimum. -/
theorem fold_min_top {ι : Type} (s : Finset ι) (f : ι → EReal) : s.fold min ⊤ f = s.inf f := rfl

end Cert.Chamfer

end
-- ==== Proof.KI.Payload.lean ====
import proofs.«146134_j35115652612619_1_alg».proof.Proof.Gen.KernelIdeal.Skeleton
import proofs.«146134_j35115652612619_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The kernel body's stored values, read at an index

At the extended reals every operation of the body is the exact one, so each value the body stores is a closed
expression in the two loaded blocks: the block of distances `d(r, k)` between point `r` of the first block and point
`k` of the second, its row minima, its column minima, and the pointwise minimum of the column minima with the values
the output block held before.
-/

noncomputable section

namespace Cert.KernelIdeal.Gen.Hand

open Idealize.ShloMosaic Idealize.ShloMosaic.TcCoe Idealize.SL.Sem Idealize.ShloMosaic.ValueIdx

/-! ## Two layout operations on columns -/

section Column
variable {α : Type}

/-- A length-`a` vector cast to an `a × 1` column reads, at `(i, u)`, the vector at `i`, whatever the unit coordinate
    `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- A square root at an index is the square root of the element. -/
theorem sqrt_apply {s : Shape} {φ : FTy} (a : FVec Ideal s φ) (i : s.Idx) : sqrt a i = Ideal.sqrt (a i) := rfl

/-! ## The block of distances -/

/-- Coordinate 0 of point `r` of the first block, as the body reads it: column 0 of the block viewed `512 × 2`. -/
theorem colA0_apply (x0 : Vec Ideal S1x512x2 .f32) (r : Fin 512) :
    (extractStridedSlice S512x1 ![0, 0] (shapeCast S512x2 x0 shapeCasts_S1x512x2_S512x2 : FVec Ideal S512x2 .f32)
        slices_S512x2_o0_0_S512x1 : FVec Ideal S512x1 .f32) (ix2 r (0 : Fin 1)) = x0 (ix3 (0 : Fin 1) r (0 : Fin 2)) :=
  (slice2_axis1_apply 0 _ _ r (0 : Fin 1) (0 : Fin 2) rfl).trans (shapeCast_1ab_ab_apply x0 _ r (0 : Fin 2))

/-- Coordinate 1 of point `r` of the first block: column 1 of the block viewed `512 × 2`. -/
theorem colA1_apply (x0 : Vec Ideal S1x512x2 .f32) (r : Fin 512) :
    (extractStridedSlice S512x1 ![0, 1] (shapeCast S512x2 x0 shapeCasts_S1x512x2_S512x2 : FVec Ideal S512x2 .f32)
        slices_S512x2_o0_1_S512x1 : FVec Ideal S512x1 .f32) (ix2 r (0 : Fin 1)) = x0 (ix3 (0 : Fin 1) r (1 : Fin 2)) :=
  (slice2_axis1_apply 1 _ _ r (0 : Fin 1) (1 : Fin 2) rfl).trans (shapeCast_1ab_ab_apply x0 _ r (1 : Fin 2))

/-- Coordinate 0 of point `k` of the second block: row 0 of the block viewed `2 × 4096`. -/
theorem rowB0_apply (x1 : Vec Ideal S1x2x4096 .f32) (k : Fin 4096) :
    (extractStridedSlice S1x4096 ![0, 0] (shapeCast S2x4096 x1 shapeCasts_S1x2x4096_S2x4096 : FVec Ideal S2x4096 .f32)
        slices_S2x4096_o0_0_S1x4096 : FVec Ideal S1x4096 .f32) (ix2 (0 : Fin 1) k) = x1 (ix3 (0 : Fin 1) (0 : Fin 2) k) :=
  (slice2_axis0_apply 0 _ _ (0 : Fin 1) k (0 : Fin 2) rfl).trans (shapeCast_1ab_ab_apply x1 _ (0 : Fin 2) k)

/-- Coordinate 1 of point `k` of the second block: row 1 of the block viewed `2 × 4096`. -/
theorem rowB1_apply (x1 : Vec Ideal S1x2x4096 .f32) (k : Fin 4096) :
    (extractStridedSlice S1x4096 ![1, 0] (shapeCast S2x4096 x1 shapeCasts_S1x2x4096_S2x4096 : FVec Ideal S2x4096 .f32)
        slices_S2x4096_o1_0_S1x4096 : FVec Ideal S1x4096 .f32) (ix2 (0 : Fin 1) k) = x1 (ix3 (0 : Fin 1) (1 : Fin 2) k) :=
  (slice2_axis0_apply 1 _ _ (0 : Fin 1) k (1 : Fin 2) rfl).trans (shapeCast_1ab_ab_apply x1 _ (1 : Fin 2) k)

/-- The distance of point `r` of the first block and point `k` of the second: the squared norms and the inner product
    over the two plane coordinates, floored at the small constant, under the square root. -/
theorem pay2_apply (x0 : Vec Ideal S1x512x2 .f32) (x1 : Vec Ideal S1x2x4096 .f32) (r : Fin 512) (k : Fin 4096) :
    k0_pay2 (F := Ideal) x0 x1 (ix2 r k)
      = Ideal.sqrt (max
          ((x0 (ix3 (0 : Fin 1) r (0 : Fin 2)) * x0 (ix3 (0 : Fin 1) r (0 : Fin 2)) + x0 (ix3 (0 : Fin 1) r (1 : Fin 2)) * x0 (ix3 (0 : Fin 1) r (1 : Fin 2)))
            + (x1 (ix3 (0 : Fin 1) (0 : Fin 2) k) * x1 (ix3 (0 : Fin 1) (0 : Fin 2) k) + x1 (ix3 (0 : Fin 1) (1 : Fin 2) k) * x1 (ix3 (0 : Fin 1) (1 : Fin 2) k))
            - Ideal.ofBits .f32 0x40000000#32
                * (x0 (ix3 (0 : Fin 1) r (0 : Fin 2)) * x1 (ix3 (0 : Fin 1) (0 : Fin 2) k) + x0 (ix3 (0 : Fin 1) r (1 : Fin 2)) * x1 (ix3 (0 : Fin 1) (1 : Fin 2) k)))
          (Ideal.ofBits .f32 0x2B8CBCCC#32)) := by
  unfold k0_pay2
  simp only [sqrt_apply, maximumf_apply, subf_apply, addf_apply, mulf_apply, broadcast_apply,
    broadcastTo_a1_ab_apply, broadcastTo_1b_ab_apply, colA0_apply, colA1_apply, rowB0_apply, rowB1_apply]
  rfl

/-! ## A minimum over one axis -/

/-- A `vector.multi_reduction <minimumf>` over one axis, at the extended reals: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The accumulator's pattern `0x7F800000` is `+∞`, the neutral element of `min`. -/
theorem ofBits_inf_f32 : FloatOps.ofBits (F := Ideal) .f32 0x7F800000#32 = (⊤ : EReal) := by
  simp [Ideal.ofBits, Ideal.ieee]

/-- The minimum along a row of a `512 × 4096` block is the infimum over the row's 4096 entries. -/
theorem rowMin_apply (d : FVec Ideal S512x4096 .f32) (r : Fin 512) :
    multiReduction (F := Ideal) .minimumf [1] S512 d 0x7F800000#32 reduces_S512x4096_S512 (.inl rfl) rfl (ix1 r)
      = Finset.univ.inf fun k : Fin 4096 => d (ix2 r k) := by
  refine (multiReduction_minimumf_single d _ reduces_S512x4096_S512 _ _ (ix1 r)).trans ?_
  rw [ofBits_inf_f32, Cert.Chamfer.fold_min_top]
  refine Finset.inf_congr rfl fun k _ => ?_
  refine congrArg d (funext fun c => Fin.ext ?_)
  match c with
  | ⟨0, _⟩ => rfl
  | ⟨1, _⟩ => rfl

/-- The minimum along a column of a `512 × 4096` block is the infimum over the column's 512 entries. -/
theorem colMin_apply (d : FVec Ideal S512x4096 .f32) (k : Fin 4096) :
    multiReduction (F := Ideal) .minimumf [0] S4096 d 0x7F800000#32 reduces_S512x4096_S4096 (.inl rfl) rfl (ix1 k)
      = Finset.univ.inf fun r : Fin 512 => d (ix2 r k) := by
  refine (multiReduction_minimumf_single d _ reduces_S512x4096_S4096 _ _ (ix1 k)).trans ?_
  rw [ofBits_inf_f32, Cert.Chamfer.fold_min_top]
  refine Finset.inf_congr rfl fun r _ => ?_
  refine congrArg d (funext fun c => Fin.ext ?_)
  match c with
  | ⟨0, _⟩ => rfl
  | ⟨1, _⟩ => rfl

/-! ## The stored minima -/

theorem pay3_apply (x0 : Vec Ideal S1x512x2 .f32) (x1 : Vec Ideal S1x2x4096 .f32) (r : Fin 512) :
    k0_pay3 (F := Ideal) x0 x1 (ix3 (0 : Fin 1) r (0 : Fin 1))
      = Finset.univ.inf fun k : Fin 4096 => k0_pay2 (F := Ideal) x0 x1 (ix2 r k) := by
  unfold k0_pay3
  refine (shapeCast_ab_1ab_apply _ _ (0 : Fin 1) r (0 : Fin 1)).trans ?_
  refine (shapeCast_a_a1_apply _ _ r (0 : Fin 1)).trans ?_
  exact rowMin_apply _ r

theorem pay4_apply (x0 : Vec Ideal S1x512x2 .f32) (x1 : Vec Ideal S1x2x4096 .f32) (k : Fin 4096) :
    k0_pay4 (F := Ideal) x0 x1 (ix2 (0 : Fin 1) k)
      = Finset.univ.inf fun r : Fin 512 => k0_pay2 (F := Ideal) x0 x1 (ix2 r k) := by
  unfold k0_pay4
  refine (shapeCast_a_1a_apply _ _ (0 : Fin 1) k).trans ?_
  exact colMin_apply _ k

theorem pay5_apply (x0 : Vec Ideal S1x512x2 .f32) (x1 : Vec Ideal S1x2x4096 .f32) (k : Fin 4096) :
    k0_pay5 (F := Ideal) x0 x1 (ix3 (0 : Fin 1) (0 : Fin 1) k) = k0_pay4 (F := Ideal) x0 x1 (ix2 (0 : Fin 1) k) := by
  unfold k0_pay5
  exact shapeCast_ab_1ab_apply _ _ (0 : Fin 1) (0 : Fin 1) k

theorem pay1_apply (v36 : FVec Ideal S1x4096 .f32) (v43 : Vec Ideal S1x1x4096 .f32) (k : Fin 4096) :
    k0_pay1 (F := Ideal) v36 v43 (ix3 (0 : Fin 1) (0 : Fin 1) k)
      = min (v43 (ix3 (0 : Fin 1) (0 : Fin 1) k)) (v36 (ix2 (0 : Fin 1) k)) := by
  unfold k0_pay1
  refine (shapeCast_ab_1ab_apply _ _ (0 : Fin 1) (0 : Fin 1) k).trans ?_
  exact congrArg (fun z => min z (v36 (ix2 (0 : Fin 1) k))) (shapeCast_1ab_ab_apply v43 _ (0 : Fin 1) k)

end Cert.KernelIdeal.Gen.Hand

end
-- ==== Proof.Tiles.lean ====
import Mathlib.Data.EReal.Basic
import Mathlib.Data.Finset.Lattice.Fold
import Mathlib.Data.Fintype.Basic

/-!
# A minimum over 4096 points taken tile by tile

The 4096 points split into 8 tiles of 512 consecutive points. The minimum over the points of the tiles up to `j + 1` is
the smaller of the minimum over the tiles up to `j` and the minimum over tile `j + 1`; the tiles up to the last are all
the points; and the minimum over one tile is the minimum over its 512 offsets.
-/

namespace Cert.Chamfer

/-- The minimum over tile `j` is the minimum over the 512 offsets inside it. -/
theorem inf_tile (f : Fin 4096 → EReal) (j : ℕ) (hj : j < 8) :
    (Finset.univ.filter fun n : Fin 4096 => n.val / 512 = j).inf f
      = Finset.univ.inf fun r : Fin 512 => f ⟨512 * j + r.val, by have := r.isLt; omega⟩ := by
  apply le_antisymm
  · refine Finset.le_inf fun r _ => Finset.inf_le ?_
    rw [Finset.mem_filter]
    refine ⟨Finset.mem_univ _, ?_⟩
    show (512 * j + r.val) / 512 = j
    have := r.isLt; omega
  · refine Finset.le_inf fun n hn => ?_
    rw [Finset.mem_filter] at hn
    have hn' : n.val / 512 = j := hn.2
    have hlt : n.val % 512 < 512 := Nat.mod_lt _ (by norm_num)
    have he : n = ⟨512 * j + (⟨n.val % 512, hlt⟩ : Fin 512).val, by have := n.isLt; show 512 * j + n.val % 512 < 4096; omega⟩ :=
      Fin.ext (by show n.val = 512 * j + n.val % 512; omega)
    rw [he]
    exact Finset.inf_le (f := fun r : Fin 512 => f ⟨512 * j + r.val, by have := r.isLt; omega⟩) (Finset.mem_univ (⟨n.val % 512, hlt⟩ : Fin 512))

/-- Up to the first tile: that tile alone. -/
theorem inf_upTo_zero (f : Fin 4096 → EReal) :
    (Finset.univ.filter fun n : Fin 4096 => n.val / 512 ≤ 0).inf f = (Finset.univ.filter fun n : Fin 4096 => n.val / 512 = 0).inf f := by
  refine congrArg (fun s => Finset.inf s f) (Finset.filter_congr fun n _ => ?_)
  exact Nat.le_zero

/-- One more tile: the smaller of the minimum so far and the new tile's minimum. -/
theorem inf_upTo_succ (f : Fin 4096 → EReal) (j : ℕ) :
    (Finset.univ.filter fun n : Fin 4096 => n.val / 512 ≤ j + 1).inf f
      = min ((Finset.univ.filter fun n : Fin 4096 => n.val / 512 ≤ j).inf f) ((Finset.univ.filter fun n : Fin 4096 => n.val / 512 = j + 1).inf f) := by
  rw [← Finset.inf_union]
  refine congrArg (fun s => Finset.inf s f) (Finset.ext fun n => ?_)
  rw [Finset.mem_union, Finset.mem_filter, Finset.mem_filter, Finset.mem_filter]
  constructor
  · rintro ⟨-, h⟩
    rcases Nat.lt_or_ge (n.val / 512) (j + 1) with h' | h'
    · exact Or.inl ⟨Finset.mem_univ _, Nat.lt_succ_iff.mp h'⟩
    · exact Or.inr ⟨Finset.mem_univ _, Nat.le_antisymm h h'⟩
  · rintro (⟨-, h⟩ | ⟨-, h⟩)
    · exact ⟨Finset.mem_univ _, Nat.le_succ_of_le h⟩
    · exact ⟨Finset.mem_univ _, Nat.le_of_eq h⟩

/-- Up to the last tile: every point. -/
theorem inf_upTo_last (f : Fin 4096 → EReal) :
    (Finset.univ.filter fun n : Fin 4096 => n.val / 512 ≤ 7).inf f = Finset.univ.inf f := by
  refine congrArg (fun s => Finset.inf s f) (Finset.filter_true_of_mem fun n _ => ?_)
  have h := n.isLt
  exact Nat.lt_succ_iff.mp ((Nat.div_lt_iff_lt_mul (by norm_num : 0 < 512)).mpr h)

/-- At the first tile the minimum so far is the tile's. -/
theorem inf_upTo_of_zero (f : Fin 4096 → EReal) (j : ℕ) (hj : j = 0) :
    (Finset.univ.filter fun n : Fin 4096 => n.val / 512 ≤ j).inf f = (Finset.univ.filter fun n : Fin 4096 => n.val / 512 = j).inf f := by
  subst hj; exact inf_upTo_zero f

/-- At a later tile the minimum so far is the smaller of the minimum up to the tile before and the tile's. -/
theorem inf_upTo_of_pos (f : Fin 4096 → EReal) (j : ℕ) (hj : j ≠ 0) :
    (Finset.univ.filter fun n : Fin 4096 => n.val / 512 ≤ j).inf f
      = min ((Finset.univ.filter fun n : Fin 4096 => n.val / 512 ≤ j - 1).inf f) ((Finset.univ.filter fun n : Fin 4096 => n.val / 512 = j).inf f) := by
  obtain ⟨i, rfl⟩ := Nat.exists_eq_succ_of_ne_zero hj
  exact inf_upTo_succ f i

end Cert.Chamfer
-- ==== Proof.KI.Accum.lean ====
import proofs.«146134_j35115652612619_1_alg».proof.Proof.KI.Blocks
import proofs.«146134_j35115652612619_1_alg».proof.Proof.KI.Payload
import proofs.«146134_j35115652612619_1_alg».proof.Proof.Tiles

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The two clouds as the region finds them, and what the output buffers hold after each point

`cloudA` is the region's first operand; `cloudB` is its second operand read point-major (the operand itself is stored
coordinate-major). After the body at grid point `t` (batch row `t / 8`, tile `t % 8`) the row-minimum buffer holds,
for each of the tile's 512 points of the first cloud, its least distance to a point of the second cloud; the
column-minimum buffer holds, for each point of the second cloud, its least distance to a point of the first cloud in
the tiles up to `t % 8`. -/

/-- The first cloud: the region's first operand. -/
def cloudA (c : Dev nD) : (⟨3, ![8, 4096, 2]⟩ : Shape).Idx → EReal := (V m c main_v6 : S8x4096x2.Idx → EReal)
/-- The second cloud, point-major: the region's second operand with its last two coordinates exchanged. -/
def cloudB (c : Dev nD) : (⟨3, ![8, 4096, 2]⟩ : Shape).Idx → EReal :=
  fun i => (V m c main_v14 : S8x2x4096.Idx → EReal) (ix3 (i 0) (i 2) (i 1))

/-- The body's distance array is the specification's distance wherever its two blocks are blocks of two clouds. -/
theorem pay2_dist (a b : (⟨3, ![8, 4096, 2]⟩ : Shape).Idx → EReal) (β : Fin 8) (n : Fin 4096)
    (x0 : Vec Ideal S1x512x2 .f32) (x1 : Vec Ideal S1x2x4096 .f32) (r : Fin 512) (k : Fin 4096)
    (h0 : ∀ e : Fin 2, x0 (ix3 (0 : Fin 1) r e) = a (ix3 β n e)) (h1 : ∀ e : Fin 2, x1 (ix3 (0 : Fin 1) e k) = b (ix3 β k e)) :
    k0_pay2 (F := Ideal) x0 x1 (ix2 r k) = Cert.Chamfer.dist a b β n k := by
  rw [pay2_apply, h0 0, h0 1, h1 0, h1 1]
  rfl

/-- At point `t` the body's distance array is the distance of the tile's points to the second cloud's points. -/
theorem dist_at (c : Dev nD) (t : Fin cfg0.N) (r : Fin 512) (k : Fin 4096) :
    k0_pay2 (F := Ideal) (iblk m c 0 t) (iblk m c 1 t) (ix2 r k) = Cert.Chamfer.dist (cloudA m c) (cloudB m c) (rowOf t) (ptOf t r) k :=
  pay2_dist (cloudA m c) (cloudB m c) (rowOf t) (ptOf t r) (iblk m c 0 t) (iblk m c 1 t) r k
    (fun e => iblk0_apply m c t r e) (fun e => iblk1_apply m c t e k)

/-- The tile's row minima. -/
theorem rows_at (c : Dev nD) (t : Fin cfg0.N) (r : Fin 512) :
    k0_pay3 (F := Ideal) (iblk m c 0 t) (iblk m c 1 t) (ix3 (0 : Fin 1) r (0 : Fin 1))
      = Finset.univ.inf fun k : Fin 4096 => Cert.Chamfer.dist (cloudA m c) (cloudB m c) (rowOf t) (ptOf t r) k :=
  (pay3_apply (iblk m c 0 t) (iblk m c 1 t) r).trans (Finset.inf_congr rfl fun k _ => dist_at m c t r k)

/-- The tile's column minima: the minimum over the tile's points. -/
theorem cols_at (c : Dev nD) (t : Fin cfg0.N) (k : Fin 4096) :
    k0_pay4 (F := Ideal) (iblk m c 0 t) (iblk m c 1 t) (ix2 (0 : Fin 1) k)
      = (Finset.univ.filter fun p : Fin 4096 => p.val / 512 = t.val % 8).inf fun p => Cert.Chamfer.dist (cloudA m c) (cloudB m c) (rowOf t) p k := by
  rw [Cert.Chamfer.inf_tile _ (t.val % 8) (Nat.mod_lt _ (by norm_num))]
  exact (pay4_apply (iblk m c 0 t) (iblk m c 1 t) k).trans (Finset.inf_congr rfl fun r _ => dist_at m c t r k)

/-- The tile's column minima as the body stores them at a first tile. -/
theorem cols5_at (c : Dev nD) (t : Fin cfg0.N) (k : Fin 4096) :
    k0_pay5 (F := Ideal) (iblk m c 0 t) (iblk m c 1 t) (ix3 (0 : Fin 1) (0 : Fin 1) k)
      = (Finset.univ.filter fun p : Fin 4096 => p.val / 512 = t.val % 8).inf fun p => Cert.Chamfer.dist (cloudA m c) (cloudB m c) (rowOf t) p k :=
  (pay5_apply (iblk m c 0 t) (iblk m c 1 t) k).trans (cols_at m c t k)

/-- What the body stores at a later tile: the smaller of what the buffer held and the tile's column minima. -/
theorem acc_at (c : Dev nD) (t : Fin cfg0.N) (xo3 : Vec Ideal S1x1x4096 .f32) (k : Fin 4096) :
    k0_pay1 (F := Ideal) (k0_pay4 (F := Ideal) (iblk m c 0 t) (iblk m c 1 t)) xo3 (ix3 (0 : Fin 1) (0 : Fin 1) k)
      = min (xo3 (ix3 (0 : Fin 1) (0 : Fin 1) k))
          ((Finset.univ.filter fun p : Fin 4096 => p.val / 512 = t.val % 8).inf fun p => Cert.Chamfer.dist (cloudA m c) (cloudB m c) (rowOf t) p k) :=
  (pay1_apply (k0_pay4 (F := Ideal) (iblk m c 0 t) (iblk m c 1 t)) xo3 k).trans (congrArg (min (xo3 (ix3 (0 : Fin 1) (0 : Fin 1) k))) (cols_at m c t k))

/-- After a first tile the row-minimum buffer holds the tile's row minima, -/
theorem outsAt0_A_pay1 (c : Dev nD) (t : Fin cfg0.N) (h0 : t.val % 8 = 0) :
    (outsAt0 m c t.val t.isLt).1 = k0_pay3 (F := Ideal) (iblk m c 0 t) (iblk m c 1 t) := by
  rw [outsAt0_A m c t h0]
  dsimp only
  exact out0_A_2_eq (F := Ideal) c (grid0.coords t) (ms0 t) (hs0 t) (ms1 t) (hs1 t) (ms2 t) (hs2 t) (ms3 t) (hs3 t) ((hcond1 t).mpr h0) (fun h => ((hcond2 t).mp h) h0) (iblk m c 0 t) (iblk m c 1 t)
/-- and the column-minimum buffer the tile's column minima. -/
theorem outsAt0_A_pay2 (c : Dev nD) (t : Fin cfg0.N) (h0 : t.val % 8 = 0) :
    (outsAt0 m c t.val t.isLt).2 = k0_pay5 (F := Ideal) (iblk m c 0 t) (iblk m c 1 t) := by
  rw [outsAt0_A m c t h0]
  dsimp only
  exact out0_A_3_eq (F := Ideal) c (grid0.coords t) (ms0 t) (hs0 t) (ms1 t) (hs1 t) (ms2 t) (hs2 t) (ms3 t) (hs3 t) ((hcond1 t).mpr h0) (fun h => ((hcond2 t).mp h) h0) (iblk m c 0 t) (iblk m c 1 t)

/-- After a later tile the row-minimum buffer holds the tile's row minima, -/
theorem outsAt0_B_pay1 (c : Dev nD) (t : Fin cfg0.N) (h0 : ¬t.val % 8 = 0) :
    (outsAt0 m c t.val t.isLt).1 = k0_pay3 (F := Ideal) (iblk m c 0 t) (iblk m c 1 t) := by
  rw [outsAt0_B m c t h0]
  dsimp only
  exact out0_B_2_eq (F := Ideal) c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt0 m c (t.val - 1) (Nat.lt_of_le_of_lt (Nat.sub_le _ _) t.isLt)).2
/-- and the column-minimum buffer the smaller of what the point before left and the tile's column minima. -/
theorem outsAt0_B_pay2 (c : Dev nD) (t : Fin cfg0.N) (h0 : ¬t.val % 8 = 0) :
    (outsAt0 m c t.val t.isLt).2 = k0_pay1 (F := Ideal) (k0_pay4 (F := Ideal) (iblk m c 0 t) (iblk m c 1 t)) (outsAt0 m c (t.val - 1) (Nat.lt_of_le_of_lt (Nat.sub_le _ _) t.isLt)).2 := by
  rw [outsAt0_B m c t h0]
  dsimp only
  exact out0_B_3_eq (F := Ideal) c (grid0.coords t) (ms0 t) (hs0 t) (ms1 t) (hs1 t) (ms2 t) (hs2 t) (ms3 t) (hs3 t) (fun h => h0 ((hcond1 t).mp h)) ((hcond2 t).mpr h0) (iblk m c 0 t) (iblk m c 1 t) (outsAt0 m c (t.val - 1) (Nat.lt_of_le_of_lt (Nat.sub_le _ _) t.isLt)).2

/-- What the two output buffers hold after the body at every point. -/
theorem outs_inv (c : Dev nD) : ∀ (n : ℕ) (hn : n < cfg0.N),
    (∀ r : Fin 512, (outsAt0 m c n hn).1 (ix3 (0 : Fin 1) r (0 : Fin 1))
        = Finset.univ.inf fun k : Fin 4096 => Cert.Chamfer.dist (cloudA m c) (cloudB m c) (rowOf ⟨n, hn⟩) (ptOf ⟨n, hn⟩ r) k)
    ∧ (∀ k : Fin 4096, (outsAt0 m c n hn).2 (ix3 (0 : Fin 1) (0 : Fin 1) k)
        = (Finset.univ.filter fun p : Fin 4096 => p.val / 512 ≤ n % 8).inf fun p => Cert.Chamfer.dist (cloudA m c) (cloudB m c) (rowOf ⟨n, hn⟩) p k) := by
  intro n
  induction n with
  | zero =>
    intro hn
    have e1 : (outsAt0 m c 0 hn).1 = _ := outsAt0_A_pay1 m c ⟨0, hn⟩ (Nat.zero_mod _)
    have e2 : (outsAt0 m c 0 hn).2 = _ := outsAt0_A_pay2 m c ⟨0, hn⟩ (Nat.zero_mod _)
    rw [e1, e2]
    refine ⟨fun r => rows_at m c ⟨0, hn⟩ r, fun k => ?_⟩
    rw [Cert.Chamfer.inf_upTo_of_zero _ _ (Nat.zero_mod 8)]
    exact cols5_at m c ⟨0, hn⟩ k
  | succ n ih =>
    intro hn
    by_cases h0 : (n + 1) % 8 = 0
    · have e1 : (outsAt0 m c (n + 1) hn).1 = _ := outsAt0_A_pay1 m c ⟨n + 1, hn⟩ h0
      have e2 : (outsAt0 m c (n + 1) hn).2 = _ := outsAt0_A_pay2 m c ⟨n + 1, hn⟩ h0
      rw [e1, e2]
      refine ⟨fun r => rows_at m c ⟨n + 1, hn⟩ r, fun k => ?_⟩
      rw [Cert.Chamfer.inf_upTo_of_zero _ _ h0]
      exact cols5_at m c ⟨n + 1, hn⟩ k
    · have e1 : (outsAt0 m c (n + 1) hn).1 = _ := outsAt0_B_pay1 m c ⟨n + 1, hn⟩ h0
      have e2 : (outsAt0 m c (n + 1) hn).2 = _ := outsAt0_B_pay2 m c ⟨n + 1, hn⟩ h0
      rw [e1, e2]
      refine ⟨fun r => rows_at m c ⟨n + 1, hn⟩ r, fun k => ?_⟩
      rw [Cert.Chamfer.inf_upTo_of_pos _ _ h0]
      refine (acc_at m c ⟨n + 1, hn⟩ _ k).trans ?_
      have hrow : rowOf ⟨n + 1, hn⟩ = rowOf ⟨n, Nat.lt_of_succ_lt hn⟩ := Fin.ext (by show (n + 1) / 8 = n / 8; omega)
      have htile : (n + 1) % 8 - 1 = n % 8 := by omega
      refine congrArg₂ min ?_ rfl
      rw [htile, hrow]
      exact (ih (Nat.lt_of_succ_lt hn)).2 k

end Cert.KernelIdeal.Gen.Hand

end
-- ==== Proof.KI.HostTerms.lean ====
import proofs.«146134_j35115652612619_1_alg».proof.Proof.Gen.KernelIdeal

noncomputable section

namespace Cert.KernelIdeal.Gen.Hand

open Idealize.ShloMosaic Idealize.ShloMosaic.TcCoe Idealize.SL.Sem

variable {F : FTy → Type} [FloatOps F]

/-! ## The host lines around the kernel call, as two functions

Before the call the program projects each cloud of space points to the plane: a point `(x, y, z)` is extended by a
fourth coordinate `1`, multiplied by the batch row's 3-by-4 matrix, and its first two image coordinates are divided
by the third. After the call it averages the row minima and the column minima over the points of each batch row,
adds the two averages and averages over the batch rows. -/

/-- The projection of a cloud `x` by the matrices `P`: `(P·(x, 1))₀₁ / (P·(x, 1))₂`, per batch row and point. -/
def plane (x : FVec F S8x4096x3 .f32) (Pm : FVec F S8x3x4 .f32) : FVec F S8x4096x2 .f32 :=
  Host.divf
    (extractStridedSlice S8x4096x2 ![0, 0, 0]
      (Host.dotGeneral dot_S8x4096x4_S8x3x4_S8x4096x3_2_2_1_1_0_0 none
        (concatenate S8x4096x4 2 [⟨S8x4096x3, x⟩, ⟨S8x4096x1, broadcastInDim S8x4096x1 ![] bcast_S_S8x4096x1 (constant (F := F) S_ .f32 0x3F800000#32)⟩] concatenates_S8x4096x3_S8x4096x1_S8x4096x4_d2) Pm)
      slices_S8x4096x3_S8x4096x2_0_0_0)
    (broadcastInDim S8x4096x2 ![0, 1, 2] bcast_S8x4096x1_S8x4096x2_0_1_2
      (extractStridedSlice S8x4096x1 ![0, 0, 2]
        (Host.dotGeneral dot_S8x4096x4_S8x3x4_S8x4096x3_2_2_1_1_0_0 none
          (concatenate S8x4096x4 2 [⟨S8x4096x3, x⟩, ⟨S8x4096x1, broadcastInDim S8x4096x1 ![] bcast_S_S8x4096x1 (constant (F := F) S_ .f32 0x3F800000#32)⟩] concatenates_S8x4096x3_S8x4096x1_S8x4096x4_d2) Pm)
        slices_S8x4096x3_S8x4096x1_0_0_2))

/-- The mean over the batch rows of (mean of `R` over a row's points + mean of `C` over a row's points). -/
def tail (R C : FVec F S8x4096 .f32) : FVec F S_ .f32 :=
  Host.divf
    (Host.reduceAdd
      (addf
        (Host.divf (Host.reduceAdd R (constant (F := F) S_ .f32 0x00000000#32) reducesTo_S8x4096_S8_d1 h_S_)
          (broadcastInDim S8 ![] bcast_S_S8 (constant (F := F) S_ .f32 0x45800000#32)))
        (Host.divf (Host.reduceAdd C (constant (F := F) S_ .f32 0x00000000#32) reducesTo_S8x4096_S8_d1 h_S_)
          (broadcastInDim S8 ![] bcast_S_S8 (constant (F := F) S_ .f32 0x45800000#32))))
      (constant (F := F) S_ .f32 0x00000000#32) reducesTo_S8_S_d0 h_S_)
    (constant (F := F) S_ .f32 0x41000000#32)

end Cert.KernelIdeal.Gen.Hand

end
-- ==== Proof.KI.Host.lean ====
import proofs.«146134_j35115652612619_1_alg».proof.Proof.KI.Frame
import proofs.«146134_j35115652612619_1_alg».proof.Proof.KI.HostTerms
import Idealize.ShloMosaic.Lib.StableHlo.Run
import Idealize.ShloMosaic.Lib.ValueIdx

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ)
open Idealize.ShloMosaic.StableHlo

/-! ## The host lines, read

The lines before the region leave the first operand at the projection of argument 1 and the second at the
projection of argument 0 with its last two axes exchanged; the lines after the region compute the tail of means of the
two output arrays, each first reshaped to batch rows by points. -/

/-- The region finds its first operand at the projection of argument 1. -/
theorem V_main_v6 (c : Dev nD) : (V m c main_v6 : S8x4096x2.Idx → Elt F .f32) = plane (m ((c : Thread nD τ).loc main_arg1)) (m ((c : Thread nD τ).loc main_arg2)) := by
  show StableHlo.after hostOps0 (fun b => m (c, b)) (Proc.devRef .tc main_v6) = _
  after_results_simp
  rfl

/-- The region finds its second operand at the projection of argument 0, coordinate-major. -/
theorem V_main_v14 (c : Dev nD) : (V m c main_v14 : S8x2x4096.Idx → Elt F .f32)
    = transpose S8x2x4096 [0, 2, 1] (plane (m ((c : Thread nD τ).loc main_arg0)) (m ((c : Thread nD τ).loc main_arg2))) transposes_S8x4096x2_S8x2x4096_0_2_1 := by
  show StableHlo.after hostOps0 (fun b => m (c, b)) (Proc.devRef .tc main_v14) = _
  after_results_simp
  rfl

set_option maxHeartbeats 1600000 in
/-- The program's result is the tail of the two output arrays the region leaves. -/
theorem tail_eq (c : Dev nD) : Pipeline.afterTail₀ cfgs (dats m) 0 (V0 m) [hostOps1] c main_v26
    = tail (shapeCast S8x4096 ((dats m 0 c).arrAt 2 cfg0.N) shapeCasts_S8x4096x1_S8x4096) (shapeCast S8x4096 ((dats m 0 c).arrAt 3 cfg0.N) shapeCasts_S8x1x4096_S8x4096) := by
  unfold Pipeline.afterTail₀
  have hw2 : Pipeline.withArrays spec0 c (V0 m c) (fun w => (dats m 0 c).arrAt w cfg0.N) (Proc.devRef .tc main_v15_0) = (dats m 0 c).arrAt 2 cfg0.N :=
    Pipeline.withArrays_arr spec0 launch0.win.arr_inj c (V0 m c) (fun w => (dats m 0 c).arrAt w cfg0.N) 2
  have hw3 : Pipeline.withArrays spec0 c (V0 m c) (fun w => (dats m 0 c).arrAt w cfg0.N) (Proc.devRef .tc main_v15_1) = (dats m 0 c).arrAt 3 cfg0.N :=
    Pipeline.withArrays_arr spec0 launch0.win.arr_inj c (V0 m c) (fun w => (dats m 0 c).arrAt w cfg0.N) 3
  show StableHlo.after hostOps1 (Pipeline.withArrays spec0 c (V0 m c) (fun w => (dats m 0 c).arrAt w cfg0.N)) (Proc.devRef .tc main_v26) = _
  generalize Pipeline.withArrays spec0 c (V0 m c) (fun w => (dats m 0 c).arrAt w cfg0.N) = W at hw2 hw3 ⊢
  after_results_simp
  rw [hw2, hw3]
  rfl

end Cert.KernelIdeal.Gen.Hand

end
-- ==== Proof.KI.Arrays.lean ====
import proofs.«146134_j35115652612619_1_alg».proof.Proof.KI.Accum
import proofs.«146134_j35115652612619_1_alg».proof.Proof.KI.Host
import Idealize.ShloMosaic.Lib.ValueLayout

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## From blocks to the two output arrays

Each point writes its row-minimum block back; the row blocks of the 64 points tile the row-minimum array. The
column-minimum block is written back after a batch row's last tile, when it holds the minimum over all eight tiles;
those eight blocks tile the column-minimum array. -/

/-- The row-minimum array the run must leave. -/
def G2 (c : Dev nD) : S8x4096x1.Idx → EReal := fun i => Cert.Chamfer.rowMin (cloudA m c) (cloudB m c) (ix2 (i 0) (i 1))
/-- The column-minimum array the run must leave. -/
def G3 (c : Dev nD) : S8x1x4096.Idx → EReal := fun i => Cert.Chamfer.colMin (cloudA m c) (cloudB m c) (ix2 (i 0) (i 2))

/-- Where offset `r` of point `t`'s row-minimum block lies in the array. -/
theorem emb2 (t : Fin cfg0.N) (r : Fin 512) :
    ((cfg0.win 2).blk t).view.emb (ix3 (0 : Fin 1) r (0 : Fin 1)) = (ix3 (rowOf t) (ptOf t r) (0 : Fin 1) : S8x4096x1.Idx) := by
  obtain ⟨-, -, -, -, -, -, e0, e1, e2, -⟩ := idx_facts t
  funext a; apply Fin.ext
  match a with
  | ⟨0, _⟩ => show win0_2.index t (0 : Fin 3) * 1 + 1 * 0 = t.val / 8; omega
  | ⟨1, _⟩ => show win0_2.index t (1 : Fin 3) * 512 + 1 * r.val = 512 * (t.val % 8) + r.val; omega
  | ⟨2, _⟩ => show win0_2.index t (2 : Fin 3) * 1 + 1 * 0 = 0; omega

/-- Where offset `k` of point `t`'s column-minimum block lies in the array. -/
theorem emb3 (t : Fin cfg0.N) (k : Fin 4096) :
    ((cfg0.win 3).blk t).view.emb (ix3 (0 : Fin 1) (0 : Fin 1) k) = (ix3 (rowOf t) (0 : Fin 1) k : S8x1x4096.Idx) := by
  obtain ⟨-, -, -, -, -, -, -, -, -, e0, e1, e2⟩ := idx_facts t
  funext a; apply Fin.ext
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 4096 + 1 * k.val = k.val; omega

/-- What point `t` writes back into the row-minimum array is block `t` of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  funext y
  obtain ⟨u, r, v, rfl⟩ : ∃ (u : Fin 1) (r : Fin 512) (v : Fin 1), y = ix3 u r v := ⟨y 0, y 1, y 2, eq_ix3 y⟩
  obtain rfl : u = 0 := Subsingleton.elim _ _
  obtain rfl : v = 0 := Subsingleton.elim _ _
  show (outsAt0 m c t.val t.isLt).1 (ix3 (0 : Fin 1) r (0 : Fin 1)) = G2 m c (((cfg0.win 2).blk t).view.emb (ix3 (0 : Fin 1) r (0 : Fin 1)))
  rw [(outs_inv m c t.val t.isLt).1 r, emb2]
  rfl

/-- What a batch row's last point writes back into the column-minimum array is its block of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3]
  funext y
  obtain ⟨u, v, k, rfl⟩ : ∃ (u : Fin 1) (v : Fin 1) (k : Fin 4096), y = ix3 u v k := ⟨y 0, y 1, y 2, eq_ix3 y⟩
  obtain rfl : u = 0 := Subsingleton.elim _ _
  obtain rfl : v = 0 := Subsingleton.elim _ _
  show (outsAt0 m c t.val t.isLt).2 (ix3 (0 : Fin 1) (0 : Fin 1) k) = G3 m c (((cfg0.win 3).blk t).view.emb (ix3 (0 : Fin 1) (0 : Fin 1) k))
  rw [(outs_inv m c t.val t.isLt).2 k, emb3, h7, Cert.Chamfer.inf_upTo_last]
  rfl

/-- An index of the row-minimum array is in point `t`'s block iff each coordinate is in the block's range. -/
theorem mem_blk2 (t : Fin cfg0.N) (i : S8x4096x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v15_0).slice (win0_2.rect t)).set ↔ _
  rw [View.set_slice_whole, Rect.mem_set_unit]
  exact Iff.rfl

/-- An index of the column-minimum array is in point `t`'s block iff each coordinate is in the block's range. -/
theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v15_1).slice (win0_3.rect t)).set ↔ _
  rw [View.set_slice_whole, Rect.mem_set_unit]
  exact Iff.rfl

/-- Every index of the row-minimum array is in the block of the point of its batch row and tile. -/
theorem cover2 (i : S8x4096x1.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  let t : Fin cfg0.N := ⟨8 * (i 0).val + (i 1).val / 512, lt_of_lt_of_eq (by omega : 8 * (i 0).val + (i 1).val / 512 < 64) N_0.symm⟩
  have ht : t.val = 8 * (i 0).val + (i 1).val / 512 := rfl
  obtain ⟨-, -, -, -, -, -, e0, e1, e2, -⟩ := idx_facts t
  refine ⟨t, flush0_2 t, (mem_blk2 t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

/-- Every index of the column-minimum array is in the block written back after its batch row's last tile. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  let t : Fin cfg0.N := ⟨8 * (i 0).val + 7, lt_of_lt_of_eq (by omega : 8 * (i 0).val + 7 < 64) N_0.symm⟩
  have ht : t.val = 8 * (i 0).val + 7 := rfl
  obtain ⟨-, -, -, -, -, -, -, -, -, e0, e1, e2⟩ := idx_facts t
  refine ⟨t, (flush0_3 t).mpr (by omega), (mem_blk3 t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

/-- The row-minimum array after the run. -/
theorem final2 (c : Dev nD) : (dats m 0 c).arrAt 2 cfg0.N = G2 m c :=
  (dats m 0 c).arrAt_eq_of_cover 2 (G2 m c) (fun t _ => flushed2_eq m c t) cover2
/-- The column-minimum array after the run. -/
theorem final3 (c : Dev nD) : (dats m 0 c).arrAt 3 cfg0.N = G3 m c :=
  (dats m 0 c).arrAt_eq_of_cover 3 (G3 m c) (fun t hf => flushed3_eq m c t hf) cover3

/-- The row-minimum array reshaped to batch rows by points is the specification's row minima. -/
theorem reshape2 (c : Dev nD) : shapeCast S8x4096 (G2 m c) shapeCasts_S8x4096x1_S8x4096 = Cert.Chamfer.rowMin (cloudA m c) (cloudB m c) := by
  funext j
  obtain ⟨β, n, rfl⟩ : ∃ (β : Fin 8) (n : Fin 4096), j = ix2 β n := ⟨j 0, j 1, eq_ix2 j⟩
  refine (shapeCast_apply (G2 m c) shapeCasts_S8x4096x1_S8x4096 (ix2 β n) (ix3 β n (0 : Fin 1)) ?_).trans rfl
  rw [Shape.rowMajor_val_three, Shape.rowMajor_val_two]
  show (β.val * 4096 + n.val) * 1 + 0 = β.val * 4096 + n.val
  omega

/-- The column-minimum array reshaped to batch rows by points is the specification's column minima. -/
theorem reshape3 (c : Dev nD) : shapeCast S8x4096 (G3 m c) shapeCasts_S8x1x4096_S8x4096 = Cert.Chamfer.colMin (cloudA m c) (cloudB m c) := by
  funext j
  obtain ⟨β, k, rfl⟩ : ∃ (β : Fin 8) (k : Fin 4096), j = ix2 β k := ⟨j 0, j 1, eq_ix2 j⟩
  refine (shapeCast_apply (G3 m c) shapeCasts_S8x1x4096_S8x4096 (ix2 β k) (ix3 β (0 : Fin 1) k) ?_).trans rfl
  rw [Shape.rowMajor_val_three, Shape.rowMajor_val_two]
  show (β.val * 1 + 0) * 4096 + k.val = β.val * 4096 + k.val
  omega

/-- The first cloud is the projection of argument 1. -/
theorem cloudA_eq (c : Dev nD) : cloudA m c = plane (F := Ideal) (m ((c : Thread nD τ).loc main_arg1)) (m ((c : Thread nD τ).loc main_arg2)) :=
  V_main_v6 m c

/-- The second cloud is the projection of argument 0. -/
theorem cloudB_eq (c : Dev nD) : cloudB m c = plane (F := Ideal) (m ((c : Thread nD τ).loc main_arg0)) (m ((c : Thread nD τ).loc main_arg2)) := by
  funext i
  obtain ⟨β, k, e, rfl⟩ : ∃ (β : Fin 8) (k : Fin 4096) (e : Fin 2), i = ix3 β k e := ⟨i 0, i 1, i 2, eq_ix3 i⟩
  show (V m c main_v14 : S8x2x4096.Idx → EReal) (ix3 β e k) = _
  rw [V_main_v14]
  exact transpose_ix3_021_apply _ transposes_S8x4096x2_S8x2x4096_0_2_1 β e k

/-- THE KERNEL'S RESULT: the tail of the specification's row and column minima of the two projected clouds. -/
theorem result_eq (c : Dev nD) : Pipeline.afterTail₀ cfgs (dats m) 0 (V0 m) [hostOps1] c main_v26
    = tail (F := Ideal)
        (Cert.Chamfer.rowMin (plane (F := Ideal) (m ((c : Thread nD τ).loc main_arg1)) (m ((c : Thread nD τ).loc main_arg2))) (plane (F := Ideal) (m ((c : Thread nD τ).loc main_arg0)) (m ((c : Thread nD τ).loc main_arg2))))
        (Cert.Chamfer.colMin (plane (F := Ideal) (m ((c : Thread nD τ).loc main_arg1)) (m ((c : Thread nD τ).loc main_arg2))) (plane (F := Ideal) (m ((c : Thread nD τ).loc main_arg0)) (m ((c : Thread nD τ).loc main_arg2)))) := by
  rw [tail_eq, final2, final3, reshape2, reshape3, cloudA_eq, cloudB_eq]

end Cert.KernelIdeal.Gen.Hand

end
-- ==== Proof.RefValue.lean ====
import proofs.«146134_j35115652612619_1_alg».proof.Proof.Gen.ReferenceIdeal.Read
import proofs.«146134_j35115652612619_1_alg».proof.Proof.Spec
import proofs.«146134_j35115652612619_1_alg».proof.Proof.KI.HostTerms

/-!
# The reference's result as a function of the two minima of the pairwise distances

The reference projects both clouds to the plane, forms the full array of distances
`d(β, n, k) = √(max(|a_n|² + |b_k|² − 2·⟨a_n, b_k⟩, ε))` from the squared norms and the batched inner products,
takes its minimum over `k` (for each point of `a`) and over `n` (for each point of `b`), and averages.
Here each stage is identified, on the extended reals, with the program-free description: the projections with
`plane`, the distance array entry by entry with `Chamfer.dist`, the two reductions with `Chamfer.rowMin` and
`Chamfer.colMin` (a minimum folded from +∞ over an axis is the infimum over that axis), and the remaining
operations with `tail`.
-/

noncomputable section

namespace Cert.ReferenceIdeal.RefValue

open Idealize.ShloMosaic Idealize.ShloMosaic.ValueIdx Idealize.ShloMosaic.TcCoe Idealize.SL.Sem
open Cert.ReferenceIdeal (S8x4096x3 S8x3x4 S8x4096x2 S8x4096 S8x4096x4096 S_ S8)
open Cert.ReferenceIdeal.Read
open Cert.KernelIdeal.Gen.Hand (plane tail)

/-- A cloud of space points: 8 batch rows of 4096 points with 3 coordinates, as extended reals. -/
abbrev Arg := (⟨S8x4096x3, .f32⟩ : BufTy).Contents (Elt Ideal)
/-- The 3-by-4 projection matrices, one per batch row. -/
abbrev Mat := (⟨S8x3x4, .f32⟩ : BufTy).Contents (Elt Ideal)

/-! ## The averages after the two minima, and the two projections -/

/-- Everything after the two minima is the mean of means `tail`, applied to them. -/
theorem tail_eq (x0 x1 : Arg) (x2 : Mat) :
    val_main_v40 (F := Ideal) x0 x1 x2
      = tail (F := Ideal) (val_main_v30 (F := Ideal) x0 x1 x2) (val_main_v34 (F := Ideal) x0 x1 x2) := by
  unfold val_main_v40 val_main_v39 val_main_v38 val_main_v37 val_main_v36 val_main_v35 val_main_v33 val_main_v32 val_main_v31
    val_main_cst_12 val_main_cst_11 val_main_cst_10 val_main_cst_9 val_main_cst_7 val_main_cst_6 tail
  rfl

/-- The first cloud of plane points `a` is the projection of the second argument. -/
theorem plane_a (x1 : Arg) (x2 : Mat) : val_main_v6 (F := Ideal) x1 x2 = plane (F := Ideal) x1 x2 := by
  unfold val_main_v6 val_main_v5 val_main_v4 val_main_v3 val_main_v2 val_main_v1 val_main_v0 val_main_cst plane
  rfl

/-- The second cloud of plane points `b` is the projection of the first argument. -/
theorem plane_b (x0 : Arg) (x2 : Mat) : val_main_v13 (F := Ideal) x0 x2 = plane (F := Ideal) x0 x2 := by
  unfold val_main_v13 val_main_v12 val_main_v11 val_main_v10 val_main_v9 val_main_v8 val_main_v7 val_main_cst_0 plane
  rfl

/-! ## One entry of the distance array

At (β, n, k) the squared norm of `a` is read at (β, n, ·), that of `b` at (β, k, ·), and the inner product pairs
(β, n, c) with (β, k, c) for the two plane coordinates `c`. -/

/-- The squared norm of `a`, broadcast along `k`, reads `a` at point `n`. -/
theorem idx_normA (β : Fin 8) (n k : Fin 4096) (c : Fin 2) :
    idx_main_v15 (idx_main_v16 (idx_main_v20 (ix3 β n k))) c = ix3 β n c := by
  funext a; apply Fin.ext
  match a with | ⟨0, _⟩ => rfl | ⟨1, _⟩ => rfl | ⟨2, _⟩ => rfl

/-- The squared norm of `b`, broadcast along `n`, reads `b` at point `k`. -/
theorem idx_normB (β : Fin 8) (n k : Fin 4096) (c : Fin 2) :
    idx_main_v18 (idx_main_v19 (idx_main_v21 (ix3 β n k))) c = ix3 β k c := by
  funext a; apply Fin.ext
  match a with | ⟨0, _⟩ => rfl | ⟨1, _⟩ => rfl | ⟨2, _⟩ => rfl

/-- The inner product's left factor is `a` at point `n`. -/
theorem idx_dotL (β : Fin 8) (n k : Fin 4096) (c : Fin 2) :
    lidx_main_v23 (ix3 β n k) c = ix3 β n c := by
  funext a; apply Fin.ext
  match a with | ⟨0, _⟩ => rfl | ⟨1, _⟩ => rfl | ⟨2, _⟩ => rfl

/-- The inner product's right factor is `b` at point `k`. -/
theorem idx_dotR (β : Fin 8) (n k : Fin 4096) (c : Fin 2) :
    ridx_main_v23 (ix3 β n k) c = ix3 β k c := by
  funext a; apply Fin.ext
  match a with | ⟨0, _⟩ => rfl | ⟨1, _⟩ => rfl | ⟨2, _⟩ => rfl

/-- Entry (β, n, k) of the distance array is `√(max(|a_n|² + |b_k|² − 2·⟨a_n, b_k⟩, ε))`: each sum over the two plane
    coordinates is written out, and a sum started from the zero word is the sum. -/
theorem dist_at (x0 x1 : Arg) (x2 : Mat) (β : Fin 8) (n k : Fin 4096) :
    val_main_v29 (F := Ideal) x0 x1 x2 (ix3 β n k)
      = Cert.Chamfer.dist (val_main_v6 (F := Ideal) x1 x2) (val_main_v13 (F := Ideal) x0 x2) β n k := by
  simp only [val_main_v29_apply, val_main_v28_apply, val_main_v26_apply, val_main_v22_apply,
    val_main_v20_apply, val_main_v16_apply, val_main_v15_apply, val_main_v14_apply, val_main_cst_1_apply,
    val_main_v21_apply, val_main_v19_apply, val_main_v18_apply, val_main_v17_apply, val_main_cst_2_apply,
    val_main_v25_apply, val_main_v24_apply, val_main_cst_3_apply, val_main_v23_apply,
    val_main_v27_apply, val_main_cst_4_apply]
  generalize val_main_v6 (F := Ideal) x1 x2 = a
  generalize val_main_v13 (F := Ideal) x0 x2 = b
  simp only [idx_normA, idx_normB, idx_dotL, idx_dotR, Fin.sum_univ_two, Ideal.ofBits_def, Ideal.ofBits_zero_f32, zero_add,
    Ideal.hostUnary_sqrt_def, Ideal.maximumf_def, Ideal.subf_def, Ideal.addf_def, Ideal.mulf_def]
  rfl

/-! ## The two minima

A minimum folded from +∞ over one axis of the distance array is the infimum over that axis's coordinate. -/

/-- The word of +∞ is the top of the extended reals. -/
theorem ofBits_inf : Ideal.ofBits .f32 0x7F800000#32 = (⊤ : EReal) := by simp [Ideal.ofBits, Ideal.ieee]

/-- Dropping the last axis of the distance array leaves (β, n). -/
theorem reduces_d2 : S8x4096x4096.Reduces [2] S8x4096 := by decide
/-- Dropping the middle axis of the distance array leaves (β, k). -/
theorem reduces_d1 : S8x4096x4096.Reduces [1] S8x4096 := by decide

/-- Inserting coordinate `k` on the last axis of (β, n) gives (β, n, k). -/
theorem lift_d2 (β : Fin 8) (n k : Fin 4096) : reduces_d2.lift (ix2 β n) k = ix3 β n k := by
  funext c; apply Fin.ext
  match c with | ⟨0, _⟩ => rfl | ⟨1, _⟩ => rfl | ⟨2, _⟩ => rfl

/-- Inserting coordinate `n` on the middle axis of (β, k) gives (β, n, k). -/
theorem lift_d1 (β : Fin 8) (k n : Fin 4096) : reduces_d1.lift (ix2 β k) n = ix3 β n k := by
  funext c; apply Fin.ext
  match c with | ⟨0, _⟩ => rfl | ⟨1, _⟩ => rfl | ⟨2, _⟩ => rfl

/-- The minimum over `k`: for each point of `a`, the least distance to a point of `b`. -/
theorem rowMin_eq (x0 x1 : Arg) (x2 : Mat) :
    val_main_v30 (F := Ideal) x0 x1 x2
      = Cert.Chamfer.rowMin (val_main_v6 (F := Ideal) x1 x2) (val_main_v13 (F := Ideal) x0 x2) := by
  funext j
  obtain ⟨β, n, rfl⟩ : ∃ (β : Fin 8) (n : Fin 4096), j = ix2 β n := ⟨j 0, j 1, eq_ix2 j⟩
  unfold val_main_v30
  rw [Host.reduce_eq_fold_single FloatOps.minimumf _ _ Cert.ReferenceIdeal.Gen.reducesTo_S8x4096x4096_S8x4096_d2 reduces_d2 Cert.ReferenceIdeal.Gen.h_S_]
  show (Finset.univ : Finset (Fin 4096)).fold min (Ideal.ofBits .f32 0x7F800000#32)
      (fun k : Fin 4096 => val_main_v29 (F := Ideal) x0 x1 x2 (reduces_d2.lift (ix2 β n) k))
    = (Finset.univ : Finset (Fin 4096)).inf fun k : Fin 4096 =>
        Cert.Chamfer.dist (val_main_v6 (F := Ideal) x1 x2) (val_main_v13 (F := Ideal) x0 x2) β n k
  rw [ofBits_inf]
  refine (Cert.Chamfer.fold_min_top _ _).trans (Finset.inf_congr rfl fun k _ => ?_)
  rw [lift_d2]
  exact dist_at x0 x1 x2 β n k

/-- The minimum over `n`: for each point of `b`, the least distance to a point of `a`. -/
theorem colMin_eq (x0 x1 : Arg) (x2 : Mat) :
    val_main_v34 (F := Ideal) x0 x1 x2
      = Cert.Chamfer.colMin (val_main_v6 (F := Ideal) x1 x2) (val_main_v13 (F := Ideal) x0 x2) := by
  funext j
  obtain ⟨β, k, rfl⟩ : ∃ (β : Fin 8) (k : Fin 4096), j = ix2 β k := ⟨j 0, j 1, eq_ix2 j⟩
  unfold val_main_v34
  rw [Host.reduce_eq_fold_single FloatOps.minimumf _ _ Cert.ReferenceIdeal.Gen.reducesTo_S8x4096x4096_S8x4096_d1 reduces_d1 Cert.ReferenceIdeal.Gen.h_S_]
  show (Finset.univ : Finset (Fin 4096)).fold min (Ideal.ofBits .f32 0x7F800000#32)
      (fun n : Fin 4096 => val_main_v29 (F := Ideal) x0 x1 x2 (reduces_d1.lift (ix2 β k) n))
    = (Finset.univ : Finset (Fin 4096)).inf fun n : Fin 4096 =>
        Cert.Chamfer.dist (val_main_v6 (F := Ideal) x1 x2) (val_main_v13 (F := Ideal) x0 x2) β n k
  rw [ofBits_inf]
  refine (Cert.Chamfer.fold_min_top _ _).trans (Finset.inf_congr rfl fun n _ => ?_)
  rw [lift_d1]
  exact dist_at x0 x1 x2 β n k

/-! ## The result -/

/-- The reference's result is the mean of means of the two minima of the pairwise distances between the projected
    clouds: `a` the projection of the second argument, `b` the projection of the first. -/
theorem ref_result (x0 x1 : (⟨Cert.ReferenceIdeal.S8x4096x3, .f32⟩ : BufTy).Contents (Elt Ideal)) (x2 : (⟨Cert.ReferenceIdeal.S8x3x4, .f32⟩ : BufTy).Contents (Elt Ideal)) :
    Cert.ReferenceIdeal.Read.val_main_v40 (F := Ideal) x0 x1 x2
      = Cert.KernelIdeal.Gen.Hand.tail (F := Ideal)
          (Cert.Chamfer.rowMin (Cert.KernelIdeal.Gen.Hand.plane (F := Ideal) x1 x2) (Cert.KernelIdeal.Gen.Hand.plane (F := Ideal) x0 x2))
          (Cert.Chamfer.colMin (Cert.KernelIdeal.Gen.Hand.plane (F := Ideal) x1 x2) (Cert.KernelIdeal.Gen.Hand.plane (F := Ideal) x0 x2)) := by
  rw [tail_eq, rowMin_eq, colMin_eq, plane_a, plane_b]

end Cert.ReferenceIdeal.RefValue

end
-- ==== Proof.lean ====
/-
  Bidirectional chamfer distance of two projected point clouds: a tiled kernel against its plain reference.

  Both programs first project two clouds of 4096 space points, in each of 8 batch rows, to the plane (extend a point by
  a coordinate 1, multiply by the row's 3-by-4 matrix, divide the first two image coordinates by the third). For the
  projected clouds a (from argument 1) and b (from argument 0) let d(n, k) = √(max(|a_n|² + |b_k|² − 2⟨a_n, b_k⟩, ε)).
  The result is the mean over batch rows of (mean over n of min_k d(n, k)) + (mean over k of min_n d(n, k)).

  The reference forms the whole 4096-by-4096 array d per batch row and reduces it along each axis. The kernel walks
  an 8-by-8 grid (batch row, tile of 512 points of a): at each point it forms the tile's 512-by-4096 block of d, writes
  the tile's row minima out, and keeps a running column minimum in its second output block — stored at a batch row's
  first tile, combined by `min` with what the block holds at the later tiles — which is written back after the row's
  last tile. On the extended reals the two agree because a minimum over 4096 points is the minimum of the minima over
  the 8 tiles (`min` is associative, commutative and idempotent; no finiteness is needed), and because the squared
  norms and the inner product, sums over the two plane coordinates, are the same sums written out.

  The modules: `KB` and `KI` run the kernel body in its two control cases and assemble each program's frame
  (identical texts at the two instances); `KI/Pieces`, `KI/Payload`, `KI/Blocks`, `KI/Accum`, `KI/Arrays`, `KI/Host`
  read the kernel's two output arrays and its host lines as functions of the arguments; `Spec` and `Tiles` hold the
  specification and the law of the tiled minimum; `RefValue` reads the reference.
-/
import proofs.«146134_j35115652612619_1_alg».proof.Defs
import proofs.«146134_j35115652612619_1_alg».proof.Proof.KB.Frame
import proofs.«146134_j35115652612619_1_alg».proof.Proof.KI.Arrays
import proofs.«146134_j35115652612619_1_alg».proof.Proof.RefValue
import proofs.«146134_j35115652612619_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Gen.Hand.frame m ρ
/-- So does the idealized kernel. -/
theorem frame_ki : Cert.frame_KernelIdeal := fun m ρ _ => Cert.KernelIdeal.Gen.Hand.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the tail of the row and column minima of the two projected clouds. -/
theorem algebraic : Cert.algebraic_KernelIdeal_ReferenceIdeal := by
  intro m ρ m' ρ' _ hagree
  refine ⟨fun c => Cert.KernelIdeal.Gen.Hand.tail (F := Ideal)
      (Cert.Chamfer.rowMin (Cert.KernelIdeal.Gen.Hand.plane (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.KernelIdeal.Gen.Hand.plane (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))))
      (Cert.Chamfer.colMin (Cert.KernelIdeal.Gen.Hand.plane (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.KernelIdeal.Gen.Hand.plane (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))), ?_, ?_⟩
  · exact (θ_run Cert.KernelIdeal.defs _ _).mono (fun r h c =>
      ⟨((h c).2 Cert.KernelIdeal.main_v26 (Pipeline.mem_restRefs_of Cert.KernelIdeal.main_v26 (by decide) (by decide))).trans
          (Cert.KernelIdeal.Gen.Hand.result_eq m c),
       ((h c).2 Cert.KernelIdeal.main_arg0 (Pipeline.mem_restRefs_of Cert.KernelIdeal.main_arg0 (by decide) (by decide))).trans
          (Cert.KernelIdeal.Gen.W_main_arg0 m (Cert.KernelIdeal.Gen.Hand.dats m) c),
       ((h c).2 Cert.KernelIdeal.main_arg1 (Pipeline.mem_restRefs_of Cert.KernelIdeal.main_arg1 (by decide) (by decide))).trans
          (Cert.KernelIdeal.Gen.W_main_arg1 m (Cert.KernelIdeal.Gen.Hand.dats m) c),
       ((h c).2 Cert.KernelIdeal.main_arg2 (Pipeline.mem_restRefs_of Cert.KernelIdeal.main_arg2 (by decide) (by decide))).trans
          (Cert.KernelIdeal.Gen.W_main_arg2 m (Cert.KernelIdeal.Gen.Hand.dats m) c)⟩)
      (Cert.KernelIdeal.Gen.Hand.run_main (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v40_eq, Cert.ReferenceIdeal.RefValue.ref_result,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
